-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S1024x4096 : Shape := ⟨2, ![1024, 4096]⟩
abbrev S32x32 : Shape := ⟨2, ![32, 32]⟩
abbrev S8x32 : Shape := ⟨2, ![8, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S32x32 : S_.BroadcastsInDim S32x32 (![] : Fin 0 → Fin S32x32.rank)
  reducesTo_S32x32_S_d0_1 : S32x32.ReducesTo [0, 1] S_
  bcast_S_S8x32 : S_.BroadcastsInDim S8x32 (![] : Fin 0 → Fin S8x32.rank)
  reducesTo_S8x32_S_d0_1 : S8x32.ReducesTo [0, 1] S_

variable [Facts]

def fn_part1 {F : FTy → Type} [FloatOps F] (main_arg4 : FVec F S32x32 .f32) (main_arg5 : FVec F S8x32 .f32) (main_arg6 : FVec F S8x32 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S8x32 .f32 := Host.absf main_arg5
  let main_cst_8 : FVec F S_ .f32 := constant S_ .f32 0x7F800000#32
  let main_v25 : FVec F S8x32 .f32 := broadcastInDim S8x32 ![] bcast_S_S8x32 main_cst_8
  let main_v26 : IVec S8x32 1 := cmpf .olt main_v24 main_v25
  let main_c_9 : IVec S_ 1 := constantI S_ 1 1#1
  let main_v27 : IVec S_ 1 := (fun x v => Host.reduce IntOp.andi x v reducesTo_S8x32_S_d0_1 h_S_) main_v26 main_c_9
  let main_v28 : IVec S_ 1 := andi main_v23 main_v27
  let main_v29 : FVec F S8x32 .f32 := Host.absf main_arg6
  let main_cst_10 : FVec F S_ .f32 := constant S_ .f32 0x7F800000#32
  let main_v30 : FVec F S8x32 .f32 := broadcastInDim S8x32 ![] bcast_S_S8x32 main_cst_10
  let main_v31 : IVec S8x32 1 := cmpf .olt main_v29 main_v30
  let main_c_11 : IVec S_ 1 := constantI S_ 1 1#1
  let main_v32 : IVec S_ 1 := (fun x v => Host.reduce IntOp.andi x v reducesTo_S8x32_S_d0_1 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S1024x4096 .f32) (main_arg3 : FVec F S1024x4096 .f32) (main_arg4 : FVec F S32x32 .f32) (main_arg5 : FVec F S8x32 .f32) (main_arg6 : FVec F S8x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S1024x4096 : Shape := ⟨2, ![1024, 4096]⟩
abbrev S32x32 : Shape := ⟨2, ![32, 32]⟩
abbrev S8x32 : Shape := ⟨2, ![8, 32]⟩
abbrev S32x128x32x128 : Shape := ⟨4, ![32, 128, 32, 128]⟩
abbrev S32x1x32x1 : Shape := ⟨4, ![32, 1, 32, 1]⟩
abbrev S8x128x32x128 : Shape := ⟨4, ![8, 128, 32, 128]⟩
abbrev S8x1x32x1 : Shape := ⟨4, ![8, 1, 32, 1]⟩
abbrev S6144x4096 : Shape := ⟨2, ![6144, 4096]⟩
abbrev S8192x6144 : Shape := ⟨2, ![8192, 6144]⟩
abbrev S512x512 : Shape := ⟨2, ![512, 512]⟩
abbrev S6144x512 : Shape := ⟨2, ![6144, 512]⟩
abbrev S512x6144 : Shape := ⟨2, ![512, 6144]⟩
abbrev S1536x512 : Shape := ⟨2, ![1536, 512]⟩
abbrev S512x1536 : Shape := ⟨2, ![512, 1536]⟩

abbrev nBuf : Space → Nat
  | .hbm => 28
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S1024x4096, .f32⟩
  | .hbm, ⟨3, _⟩ => ⟨S1024x4096, .f32⟩
  | .hbm, ⟨4, _⟩ => ⟨S32x32, .f32⟩
  | .hbm, ⟨5, _⟩ => ⟨S8x32, .f32⟩
  | .hbm, ⟨6, _⟩ => ⟨S8x32, .f32⟩
  | .hbm, ⟨7, _⟩ => ⟨S32x128x32x128, .f32⟩
  | .hbm, ⟨8, _⟩ => ⟨S32x1x32x1, .f32⟩
  | .hbm, ⟨9, _⟩ => ⟨S32x128x32x128, .f32⟩
  | .hbm, ⟨10, _⟩ => ⟨S32x128x32x128, .f32⟩
  | .hbm, ⟨11, _⟩ => ⟨S4096x4096, .f32⟩
  | .hbm, ⟨12, _⟩ => ⟨S4096x4096, .bf16⟩
  | .hbm, ⟨13, _⟩ => ⟨S8x128x32x128, .f32⟩
  | .hbm, ⟨14, _⟩ => ⟨S8x1x32x1, .f32⟩
  | .hbm, ⟨15, _⟩ => ⟨S8x128x32x128, .f32⟩
  | .hbm, ⟨16, _⟩ => ⟨S8x128x32x128, .f32⟩
  | .hbm, ⟨17, _⟩ => ⟨S1024x4096, .f32⟩
  | .hbm, ⟨18, _⟩ => ⟨S1024x4096, .bf16⟩
  | .hbm, ⟨19, _⟩ => ⟨S8x128x32x128, .f32⟩
  | .hbm, ⟨20, _⟩ => ⟨S8x1x32x1, .f32⟩
  | .hbm, ⟨21, _⟩ => ⟨S8x128x32x128, .f32⟩
  | .hbm, ⟨22, _⟩ => ⟨S8x128x32x128, .f32⟩
  | .hbm, ⟨23, _⟩ => ⟨S1024x4096, .f32⟩
  | .hbm, ⟨24, _⟩ => ⟨S1024x4096, .bf16⟩
  | .hbm, ⟨25, _⟩ => ⟨S6144x4096, .bf16⟩
  | .hbm, ⟨26, _⟩ => ⟨S8192x4096, .bf16⟩
  | .hbm, ⟨27, _⟩ => ⟨S8192x6144, .f32⟩
  | .local _ .vmem, ⟨0, _⟩ => ⟨S512x512, .bf16⟩
  | .local _ .vmem, ⟨1, _⟩ => ⟨S512x512, .bf16⟩
  | .local _ .vmem, ⟨2, _⟩ => ⟨S6144x512, .bf16⟩
  | .local _ .vmem, ⟨3, _⟩ => ⟨S6144x512, .bf16⟩
  | .local _ .vmem, ⟨4, _⟩ => ⟨S512x6144, .f32⟩
  | .local _ .vmem, ⟨5, _⟩ => ⟨S512x6144, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4096x4096_S32x128x32x128 : S4096x4096.ShapeCasts S32x128x32x128
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  shapeCasts_S32x128x32x128_S4096x4096 : S32x128x32x128.ShapeCasts S4096x4096
  bitsLt_bf16_f32 : FTy.bits .bf16 < FTy.bits .f32
  shapeCasts_S1024x4096_S8x128x32x128 : S1024x4096.ShapeCasts S8x128x32x128
  bcast_S8x32_S8x1x32x1_0_2 : S8x32.BroadcastsInDim S8x1x32x1 (![0, 2] : Fin 2 → Fin S8x1x32x1.rank)
  bcast_S8x1x32x1_S8x128x32x128_0_1_2_3 : S8x1x32x1.BroadcastsInDim S8x128x32x128 (![0, 1, 2, 3] : Fin 4 → Fin S8x128x32x128.rank)
  shapeCasts_S8x128x32x128_S1024x4096 : S8x128x32x128.ShapeCasts S1024x4096
  concatenates_S4096x4096_S1024x4096_S1024x4096_S6144x4096_d0 : Shape.Concatenates [S4096x4096, S1024x4096, S1024x4096] S6144x4096 0
  inb_S512x6144_S512x6144_0_0 : ∀ a, (![0, 0] : Fin 2 → Nat) a + S512x6144.size a ≤ S512x6144.size a
  h_S512x6144 : 0 < S512x6144.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S6144x512_S1536x512_0_0 : ∀ a, (![0, 0] : Fin 2 → Nat) a + S1536x512.size a ≤ S6144x512.size a
  h_S1536x512 : 0 < S1536x512.numel
  shapeCasts_S1536x512_S1536x512 : S1536x512.ShapeCasts S1536x512
  inb_S512x6144_S512x1536_0_0 : ∀ a, (![0, 0] : Fin 2 → Nat) a + S512x1536.size a ≤ S512x6144.size a
  h_S512x1536 : 0 < S512x1536.numel
  shapeCasts_S512x1536_S512x1536 : S512x1536.ShapeCasts S512x1536
  inb_S6144x512_S1536x512_1536_0 : ∀ a, (![1536, 0] : Fin 2 → Nat) a + S1536x512.size a ≤ S6144x512.size a
  inb_S512x6144_S512x1536_0_1536 : ∀ a, (![0, 1536] : Fin 2 → Nat) a + S512x1536.size a ≤ S512x6144.size a
  inb_S6144x512_S1536x512_3072_0 : ∀ a, (![3072, 0] : Fin 2 → Nat) a + S1536x512.size a ≤ S6144x512.size a
  inb_S512x6144_S512x1536_0_3072 : ∀ a, (![0, 3072] : Fin 2 → Nat) a + S512x1536.size a ≤ S512x6144.size a
  inb_S6144x512_S1536x512_4608_0 : ∀ a, (![4608, 0] : Fin 2 → Nat) a + S1536x512.size a ≤ S6144x512.size a
  inb_S512x6144_S512x1536_0_4608 : ∀ a, (![0, 4608] : Fin 2 → Nat) a + S512x1536.size a ≤ S512x6144.size a
  dot_S512x512_S1536x512_S512x1536_1_1_0_0_n_n_wf : DotDims.WF S512x512 S1536x512 S512x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .bf16 = 32 ∨ (Rect.block (s := S8192x4096) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6144x512.size a ≤ S6144x4096.size a
  hwx0_1 : ∀ i : grid0.Coords, EltTy.bits .bf16 = 32 ∨ (Rect.block (s := S6144x4096) S6144x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x6144.size a ≤ S8192x6144.size a
  hwx0_2 : ∀ i : grid0.Coords, EltTy.bits .f32 = 32 ∨ (Rect.block (s := S8192x6144) S512x6144.size (cc0_transform_2 i) (hinb0_2 i)).WholeWords (EltTy.packing .f32)

variable [Facts₀]

def dot_S512x512_S1536x512_S512x1536_1_1_0_0_n_n : DotDims S512x512 S1536x512 S512x1536 where
  lhsContracting := [1]
  rhsContracting := [1]
  lhsNonContracting := [0]
  rhsNonContracting := [0]
  lhsBatch := []
  rhsBatch := []
  wf := dot_S512x512_S1536x512_S512x1536_1_1_0_0_n_n_wf

abbrev win0_0 : Pipeline.Window sig grid0 :=
  Pipeline.Window.ofSpec (Memref.whole main_v19) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6144x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x6144.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S1024x4096 : Shape := ⟨2, ![1024, 4096]⟩
abbrev S32x32 : Shape := ⟨2, ![32, 32]⟩
abbrev S8x32 : Shape := ⟨2, ![8, 32]⟩
abbrev S32x128x32x128 : Shape := ⟨4, ![32, 128, 32, 128]⟩
abbrev S32x1x32x1 : Shape := ⟨4, ![32, 1, 32, 1]⟩
abbrev S8x128x32x128 : Shape := ⟨4, ![8, 128, 32, 128]⟩
abbrev S8x1x32x1 : Shape := ⟨4, ![8, 1, 32, 1]⟩
abbrev S4096x1024 : Shape := ⟨2, ![4096, 1024]⟩
abbrev S8192x1024 : Shape := ⟨2, ![8192, 1024]⟩
abbrev S8192x6144 : Shape := ⟨2, ![8192, 6144]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S1024x4096, .f32⟩
  | .hbm, ⟨3, _⟩ => ⟨S1024x4096, .f32⟩
  | .hbm, ⟨4, _⟩ => ⟨S32x32, .f32⟩
  | .hbm, ⟨5, _⟩ => ⟨S8x32, .f32⟩
  | .hbm, ⟨6, _⟩ => ⟨S8x32, .f32⟩
  | .hbm, ⟨7, _⟩ => ⟨S32x128x32x128, .f32⟩
  | .hbm, ⟨8, _⟩ => ⟨S32x1x32x1, .f32⟩
  | .hbm, ⟨9, _⟩ => ⟨S32x128x32x128, .f32⟩
  | .hbm, ⟨10, _⟩ => ⟨S32x128x32x128, .f32⟩
  | .hbm, ⟨11, _⟩ => ⟨S4096x4096, .f32⟩
  | .hbm, ⟨12, _⟩ => ⟨S4096x4096, .f32⟩
  | .hbm, ⟨13, _⟩ => ⟨S8192x4096, .f32⟩
  | .hbm, ⟨14, _⟩ => ⟨S8x128x32x128, .f32⟩
  | .hbm, ⟨15, _⟩ => ⟨S8x1x32x1, .f32⟩
  | .hbm, ⟨16, _⟩ => ⟨S8x128x32x128, .f32⟩
  | .hbm, ⟨17, _⟩ => ⟨S8x128x32x128, .f32⟩
  | .hbm, ⟨18, _⟩ => ⟨S1024x4096, .f32⟩
  | .hbm, ⟨19, _⟩ => ⟨S4096x1024, .f32⟩
  | .hbm, ⟨20, _⟩ => ⟨S8192x1024, .f32⟩
  | .hbm, ⟨21, _⟩ => ⟨S8x128x32x128, .f32⟩
  | .hbm, ⟨22, _⟩ => ⟨S8x1x32x1, .f32⟩
  | .hbm, ⟨23, _⟩ => ⟨S8x128x32x128, .f32⟩
  | .hbm, ⟨24, _⟩ => ⟨S8x128x32x128, .f32⟩
  | .hbm, ⟨25, _⟩ => ⟨S1024x4096, .f32⟩
  | .hbm, ⟨26, _⟩ => ⟨S4096x1024, .f32⟩
  | .hbm, ⟨27, _⟩ => ⟨S8192x1024, .f32⟩
  | .hbm, ⟨28, _⟩ => ⟨S8192x6144, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  shapeCasts_S4096x4096_S32x128x32x128 : S4096x4096.ShapeCasts S32x128x32x128
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  shapeCasts_S32x128x32x128_S4096x4096 : S32x128x32x128.ShapeCasts S4096x4096
  transposes_S4096x4096_S4096x4096_1_0 : S4096x4096.Transposes [1, 0] S4096x4096
  shapeCasts_S1024x4096_S8x128x32x128 : S1024x4096.ShapeCasts S8x128x32x128
  bcast_S8x32_S8x1x32x1_0_2 : S8x32.BroadcastsInDim S8x1x32x1 (![0, 2] : Fin 2 → Fin S8x1x32x1.rank)
  bcast_S8x1x32x1_S8x128x32x128_0_1_2_3 : S8x1x32x1.BroadcastsInDim S8x128x32x128 (![0, 1, 2, 3] : Fin 4 → Fin S8x128x32x128.rank)
  shapeCasts_S8x128x32x128_S1024x4096 : S8x128x32x128.ShapeCasts S1024x4096
  transposes_S1024x4096_S4096x1024_1_0 : S1024x4096.Transposes [1, 0] S4096x1024
  concatenates_S8192x4096_S8192x1024_S8192x1024_S8192x6144_d1 : Shape.Concatenates [S8192x4096, S8192x1024, S8192x1024] S8192x6144 1
  dot_S8192x4096_S4096x4096_S8192x4096_1_0_0_1_n_n_wf : DotDims.WF S8192x4096 S4096x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.K.Base.lean ====
/-
  The launch side of the frame of the one pipelined region, for any float instance.

  @main is twenty host operations and then the region.  The host operations write only their own result buffers
  (each of the three weight arrays scaled block by block and rounded, the three stacked, the activations rounded), so
  the region finds every argument array as launched; the contents the region is entered with are the fold of the
  host operations over the launch memory.  The grid is 16 row tiles by 8 column tiles, the column tile running
  fastest: the output block of a row tile stays in its staging buffer across the 8 column tiles and is written
  back after the last.  The body zeroes the block exactly at column tile 0 (the branch condition, decided over
  the 128 grid points).
-/
import proofs.«176679_j1915555414614_2_alg».proof.Proof.Gen.Kernel.Launch
import proofs.«176679_j1915555414614_2_alg».proof.Proof.Gen.Kernel.Skeleton
import proofs.«176679_j1915555414614_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the host operations folded over the launch memory. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' staging buffer holds the point's block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run ending with every unstaged, unscoped buffer at its region-entry contents leaves the seven argument arrays as
    launched: no window stages an argument, and no host operation wrote one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch condition -/

/-- The condition of the body's one branch, from the grid coordinates: the column tile is tile 0. -/
abbrev cond0_0 (i : grid0.Coords) : Prop := (Scalar.cmpi .ne (Scalar.extui (Scalar.cmpi .eq (BitVec.ofNat 32 (i 1).val) 0#32)) 0#32) = 1#1
/-- It holds exactly at the first of each row tile's eight points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of the output window, through which its contents are stated. -/
abbrev VO0_2 : View sig .tc .vmem S512x6144 .f32 := (Memref.whole cc0_stg2_0 : Memref sig .tc .vmem S512x6144 .f32).view
/-- Each window's current staging memref at point `t`, as the pipeline passes it, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x6144 .f32 := win0_2.stage (cfg0.slots t 2)
abbrev hs0_2 (t : Fin cfg0.N) : (ms0_2 t).IsWhole := hstage0_2 ((cfg0.slots t 2).cast nbuf0_2)

end Cert.Kernel.Hand

end
-- ==== Proof.K.RunA.lean ====
/-
  The body run once, for any float instance, in the case where the column tile is tile 0: the output block is zeroed whole, then each of its four 1536-column strips is read back, the strip's partial product added, and stored.
  The two input blocks are only read.  What the stores leave in the output's staging buffer is found by running the body
  symbolically; the list of stored pieces is the witness.
-/
import proofs.«176679_j1915555414614_2_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref (last first) in this case, with the proof that on
    whole staging memrefs — the inputs' at their contents, the output's at anything — the body runs to a continuation holding
    the inputs' as they were and the output's buffer with those pieces written. -/
noncomputable def kernelRun0_A (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : cond0_0 i)
    (x0 : Vec F S512x512 .bf16) (x1 : Vec F S6144x512 .bf16) :
    { L2 : List (View.Piece (Elt F) S512x6144 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0_kernel i arg2 harg2 arg3 harg3 arg4 harg4) K } := by
  refine ⟨?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.RunB.lean ====
/-
  The body run once, for any float instance, in the case where the column tile is not tile 0: each of the four 1536-column strips of the output block, as the point before left it, is read, the strip's partial product added, and stored.
  The two input blocks are only read.  What the stores leave in the output's staging buffer is found by running the body
  symbolically; the list of stored pieces is the witness.
-/
import proofs.«176679_j1915555414614_2_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref (last first) in this case, with the proof that on
    whole staging memrefs — the inputs' at their contents, the output's at its running contents — the body runs to a continuation holding
    the inputs' as they were and the output's buffer with those pieces written. -/
noncomputable def kernelRun0_B (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : ¬cond0_0 i)
    (x0 : Vec F S512x512 .bf16) (x1 : Vec F S6144x512 .bf16) (xo2 : Vec F S512x6144 .f32) :
    { L2 : List (View.Piece (Elt F) S512x6144 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0_kernel i arg2 harg2 arg3 harg3 arg4 harg4) K } := by
  refine ⟨?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Frame.lean ====
/-
  The frame of the one pipelined region, for any float instance: what the output block's staging buffer holds after
  the body at each of the 128 grid points, the pipeline's proof data, the body obligation at a generic point, the run,
  and the frame claim.

  A row tile's output block lives in one staging buffer across its eight column tiles.  At column tile 0 the body's
  stores cover the block without reading what was there; at a later column tile the body reads what the point before
  left (the buffer is written back only after the eighth) and its four strip stores cover the block again.  So the
  block's contents are defined by recursion on the point, and the recursion's two cases are the two runs of the body.
-/
import proofs.«176679_j1915555414614_2_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- In either case the four 512 × 1536 strip stores tile the 512 × 6144 block, so the pieces cover it. -/
theorem cover0_A_2 (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : cond0_0 i)
    (x0 : Vec F S512x512 .bf16) (x1 : Vec F S6144x512 .bf16) (y : S512x6144.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S512x1536.size (by sl_kernel_rfl) y

/-- What the first case leaves in the output's staging buffer: its pieces read back. -/
def out0_A_2 (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : cond0_0 i)
    (x0 : Vec F S512x512 .bf16) (x1 : Vec F S6144x512 .bf16) : Vec F S512x6144 .f32 :=
  VO0_2.read (Elt F) (VO0_2.writes (Elt F) VO0_2.junk (kernelRun0_A c i arg2 harg2 arg3 harg3 arg4 harg4 hc0 x0 x1).1)

theorem cover0_B_2 (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : ¬cond0_0 i)
    (x0 : Vec F S512x512 .bf16) (x1 : Vec F S6144x512 .bf16) (xo2 : Vec F S512x6144 .f32) (y : S512x6144.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S512x1536.size (by sl_kernel_rfl) y

/-- What the second case leaves there, over the running contents `xo2`. -/
def out0_B_2 (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : ¬cond0_0 i)
    (x0 : Vec F S512x512 .bf16) (x1 : Vec F S6144x512 .bf16) (xo2 : Vec F S512x6144 .f32) : Vec F S512x6144 .f32 :=
  VO0_2.read (Elt F) (VO0_2.writes (Elt F) VO0_2.junk (kernelRun0_B c i arg2 harg2 arg3 harg3 arg4 harg4 hc0 x0 x1 xo2).1)

/-! ## What the output's staging buffer holds after each point -/

/-- The accumulation: after the body at position `n`, the case the position selects, run at the point's memrefs and
    input blocks; at a later column tile over what position `n - 1` left. -/
def outsAt0 (c : Dev nD) : (n : ℕ) → n < cfg0.N → Vec F S512x6144 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a point of column tile 0: the first case's contents. -/
theorem outsAt0_A (c : Dev nD) (t : Fin cfg0.N) (h0 : t.val % 8 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a point of a later column tile: the second case's contents, over what the point before left. -/
theorem outsAt0_B (c : Dev nD) (t : Fin cfg0.N) (h0 : ¬t.val % 8 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt0`; the region invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point of a later column tile the output's current staging buffer holds what the body left at the point before:
    the point is not the first, and the buffer was not written back between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks; the column tile decides the case; at a later column
    tile the output's memref holds what the point before left; so the case's run applies, and its pieces read back are
    the point's contents because they cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 128 := lt_of_lt_of_eq t.isLt (show cfg0.N = 128 from N_0)
  by_cases h0 : t.val % 8 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution terminates without a fault and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Hand

end
-- ==== Proof.KI.Base.lean ====
/-
  The launch side of the frame of the one pipelined region, for any float instance.

  @main is twenty host operations and then the region.  The host operations write only their own result buffers
  (each of the three weight arrays scaled block by block and rounded, the three stacked, the activations rounded), so
  the region finds every argument array as launched; the contents the region is entered with are the fold of the
  host operations over the launch memory.  The grid is 16 row tiles by 8 column tiles, the column tile running
  fastest: the output block of a row tile stays in its staging buffer across the 8 column tiles and is written
  back after the last.  The body zeroes the block exactly at column tile 0 (the branch condition, decided over
  the 128 grid points).
-/
import proofs.«176679_j1915555414614_2_alg».proof.Proof.Gen.KernelIdeal.Launch
import proofs.«176679_j1915555414614_2_alg».proof.Proof.Gen.KernelIdeal.Skeleton
import proofs.«176679_j1915555414614_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the host operations folded over the launch memory. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' staging buffer holds the point's block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run ending with every unstaged, unscoped buffer at its region-entry contents leaves the seven argument arrays as
    launched: no window stages an argument, and no host operation wrote one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch condition -/

/-- The condition of the body's one branch, from the grid coordinates: the column tile is tile 0. -/
abbrev cond0_0 (i : grid0.Coords) : Prop := (Scalar.cmpi .ne (Scalar.extui (Scalar.cmpi .eq (BitVec.ofNat 32 (i 1).val) 0#32)) 0#32) = 1#1
/-- It holds exactly at the first of each row tile's eight points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of the output window, through which its contents are stated. -/
abbrev VO0_2 : View sig .tc .vmem S512x6144 .f32 := (Memref.whole cc0_stg2_0 : Memref sig .tc .vmem S512x6144 .f32).view
/-- Each window's current staging memref at point `t`, as the pipeline passes it, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x6144 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KI.RunA.lean ====
/-
  The body run once, for any float instance, in the case where the column tile is tile 0: the output block is zeroed whole, then each of its four 1536-column strips is read back, the strip's partial product added, and stored.
  The two input blocks are only read.  What the stores leave in the output's staging buffer is found by running the body
  symbolically; the list of stored pieces is the witness.
-/
import proofs.«176679_j1915555414614_2_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref (last first) in this case, with the proof that on
    whole staging memrefs — the inputs' at their contents, the output's at anything — the body runs to a continuation holding
    the inputs' as they were and the output's buffer with those pieces written. -/
noncomputable def kernelRun0_A (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : cond0_0 i)
    (x0 : Vec F S512x512 .bf16) (x1 : Vec F S6144x512 .bf16) :
    { L2 : List (View.Piece (Elt F) S512x6144 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0_kernel i arg2 harg2 arg3 harg3 arg4 harg4) K } := by
  refine ⟨?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.RunB.lean ====
/-
  The body run once, for any float instance, in the case where the column tile is not tile 0: each of the four 1536-column strips of the output block, as the point before left it, is read, the strip's partial product added, and stored.
  The two input blocks are only read.  What the stores leave in the output's staging buffer is found by running the body
  symbolically; the list of stored pieces is the witness.
-/
import proofs.«176679_j1915555414614_2_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref (last first) in this case, with the proof that on
    whole staging memrefs — the inputs' at their contents, the output's at its running contents — the body runs to a continuation holding
    the inputs' as they were and the output's buffer with those pieces written. -/
noncomputable def kernelRun0_B (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : ¬cond0_0 i)
    (x0 : Vec F S512x512 .bf16) (x1 : Vec F S6144x512 .bf16) (xo2 : Vec F S512x6144 .f32) :
    { L2 : List (View.Piece (Elt F) S512x6144 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0_kernel i arg2 harg2 arg3 harg3 arg4 harg4) K } := by
  refine ⟨?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Frame.lean ====
/-
  The frame of the one pipelined region, for any float instance: what the output block's staging buffer holds after
  the body at each of the 128 grid points, the pipeline's proof data, the body obligation at a generic point, the run,
  and the frame claim.

  A row tile's output block lives in one staging buffer across its eight column tiles.  At column tile 0 the body's
  stores cover the block without reading what was there; at a later column tile the body reads what the point before
  left (the buffer is written back only after the eighth) and its four strip stores cover the block again.  So the
  block's contents are defined by recursion on the point, and the recursion's two cases are the two runs of the body.
-/
import proofs.«176679_j1915555414614_2_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- In either case the four 512 × 1536 strip stores tile the 512 × 6144 block, so the pieces cover it. -/
theorem cover0_A_2 (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : cond0_0 i)
    (x0 : Vec F S512x512 .bf16) (x1 : Vec F S6144x512 .bf16) (y : S512x6144.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S512x1536.size (by sl_kernel_rfl) y

/-- What the first case leaves in the output's staging buffer: its pieces read back. -/
def out0_A_2 (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : cond0_0 i)
    (x0 : Vec F S512x512 .bf16) (x1 : Vec F S6144x512 .bf16) : Vec F S512x6144 .f32 :=
  VO0_2.read (Elt F) (VO0_2.writes (Elt F) VO0_2.junk (kernelRun0_A c i arg2 harg2 arg3 harg3 arg4 harg4 hc0 x0 x1).1)

theorem cover0_B_2 (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : ¬cond0_0 i)
    (x0 : Vec F S512x512 .bf16) (x1 : Vec F S6144x512 .bf16) (xo2 : Vec F S512x6144 .f32) (y : S512x6144.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S512x1536.size (by sl_kernel_rfl) y

/-- What the second case leaves there, over the running contents `xo2`. -/
def out0_B_2 (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc0 : ¬cond0_0 i)
    (x0 : Vec F S512x512 .bf16) (x1 : Vec F S6144x512 .bf16) (xo2 : Vec F S512x6144 .f32) : Vec F S512x6144 .f32 :=
  VO0_2.read (Elt F) (VO0_2.writes (Elt F) VO0_2.junk (kernelRun0_B c i arg2 harg2 arg3 harg3 arg4 harg4 hc0 x0 x1 xo2).1)

/-! ## What the output's staging buffer holds after each point -/

/-- The accumulation: after the body at position `n`, the case the position selects, run at the point's memrefs and
    input blocks; at a later column tile over what position `n - 1` left. -/
def outsAt0 (c : Dev nD) : (n : ℕ) → n < cfg0.N → Vec F S512x6144 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a point of column tile 0: the first case's contents. -/
theorem outsAt0_A (c : Dev nD) (t : Fin cfg0.N) (h0 : t.val % 8 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a point of a later column tile: the second case's contents, over what the point before left. -/
theorem outsAt0_B (c : Dev nD) (t : Fin cfg0.N) (h0 : ¬t.val % 8 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt0`; the region invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point of a later column tile the output's current staging buffer holds what the body left at the point before:
    the point is not the first, and the buffer was not written back between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks; the column tile decides the case; at a later column
    tile the output's memref holds what the point before left; so the case's run applies, and its pieces read back are
    the point's contents because they cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 128 := lt_of_lt_of_eq t.isLt (show cfg0.N = 128 from N_0)
  by_cases h0 : t.val % 8 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution terminates without a fault and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Hand

end
-- ==== Proof.LibDotNT.lean ====
/-
  A matrix product against a transposed right operand, read at an entry.  For dimension numbers that contract the
  second axis of BOTH operands (no batch axes), the product of an M × K array by an N × K array at entry (r, c) is the
  sum over k < K of left(r, k) · right(c, k) — the inner product of the left operand's row r with the right operand's
  row c — for the kernel's product into a zero accumulator and for the host's product alike.  The contraction index of
  the dimension numbers is a one-coordinate tuple; the sum is re-indexed by that coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} {φ₁ φ₂ : FTy}
  (D : DotDims (⟨2, ![M, K]⟩ : Shape) (⟨2, ![N, K]⟩ : Shape) (⟨2, ![M, N]⟩ : Shape))
  (hrank : D.contr.rank = 1) (hsize : D.contr.size ⟨0, by omega⟩ = K)
  (hlc : D.lhsContracting = [1]) (hrc : D.rhsContracting = [1])
  (hL0 : ∀ j k, (D.lhsIdx j k 0).val = (j 0).val) (hR0 : ∀ j k, (D.rhsIdx j k 0).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR0 in
/-- The right operand's index there is (c, k): its row is the output's column. -/
theorem rhsIdx_eq (r : Fin M) (c : Fin N) (k : Fin K) :
    D.rhsIdx (ix2 r c) ((contrEquiv1 D K hrank hsize).symm k) = ix2 c k := by
  funext a; apply Fin.ext
  match a with
  | ⟨0, _⟩ => exact hR0 _ _
  | ⟨1, _⟩ => exact (D.rhsIdx_val_of_single hrc _ _).trans (contrEquiv1_symm_val D K hrank hsize k)

include hrank hsize hlc hrc hL0 hR0 in
/-- The sum over the contraction index is the sum over k < K of the two operands at (r, k) and (c, k). -/
theorem sum_contr (lhs : FVec Ideal (⟨2, ![M, K]⟩ : Shape) φ₁) (rhs : FVec Ideal (⟨2, ![N, K]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 c k) := by
  rw [← Equiv.sum_comp (contrEquiv1 D K hrank hsize).symm]
  refine Finset.sum_congr rfl fun k _ => ?_
  rw [lhsIdx_eq D hrank hsize hlc hL0 r c k, rhsIdx_eq D hrank hsize hrc hR0 r c k]

include hrank hsize hlc hrc hL0 hR0 in
/-- The kernel's product into the zero accumulator, at an entry. -/
theorem matmul_zero_apply (prec : Option ContractPrecision) (lhs : FVec Ideal (⟨2, ![M, K]⟩ : Shape) φ₁)
    (rhs : FVec Ideal (⟨2, ![N, K]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 c k) :=
  (Ideal.matmul_constant_zero_apply D prec lhs rhs (ix2 r c)).trans (sum_contr D hrank hsize hlc hrc hL0 hR0 lhs rhs r c)

include hrank hsize hlc hrc hL0 hR0 in
/-- The host's product, at an entry, whatever its schedule. -/
theorem dotGeneral_apply (prec : Option ContractPrecision) (sched : HostSchedule) (lhs : FVec Ideal (⟨2, ![M, K]⟩ : Shape) φ₁)
    (rhs : FVec Ideal (⟨2, ![N, K]⟩ : Shape) φ₂) (r : Fin M) (c : Fin N) :
    FloatOps.dotGeneral D prec sched lhs rhs (ix2 r c) = ∑ k : Fin K, lhs (ix2 r k) * rhs (ix2 c k) :=
  (Ideal.dotGeneral_apply D prec sched lhs rhs (ix2 r c)).trans (sum_contr D hrank hsize hlc hrc hL0 hR0 lhs rhs r c)

end Cert.LibDotNT

end
-- ==== Proof.Payload.lean ====
/-
  The body's arithmetic at an entry.  The body of the kernel treats its 512 × 6144 output block as four strips of
  1536 columns.  At column tile 0 it first fills the whole block with zero; then, for each strip, it stores the
  strip as found plus the product of the 512 × 512 activation block with the transpose of a 1536 × 512 weight
  block.  So a strip's stored entry (r, q) is the entry as found plus the inner product, over the 512 shared
  columns, of the activation block's row r with the weight block's row q.  (A cast of an array to its own shape
  changes nothing, and the product accumulates into zero.)
-/
import proofs.«176679_j1915555414614_2_alg».proof.Proof.Gen.KernelIdeal.Skeleton
import proofs.«176679_j1915555414614_2_alg».proof.Proof.LibDotNT
import Idealize.ShloMosaic.Lib.ValueIdx
import Idealize.ShloMosaic.Lib.Pipeline.Value
import Idealize.ShloMosaic.PureOps.Ideal.Laws

noncomputable section

namespace Cert.Payload

open Cert.KernelIdeal Cert.KernelIdeal.Gen Idealize.ShloMosaic Idealize.ShloMosaic.ValueIdx

/-! ## The product's dimension numbers -/

/-- The left operand's row is the output's row. -/
theorem dot_lhs0 (j : S512x1536.Idx) (k : dot_S512x512_S1536x512_S512x1536_1_1_0_0_n_n.contr.Idx) :
    (dot_S512x512_S1536x512_S512x1536_1_1_0_0_n_n.lhsIdx j k 0).val = (j 0).val := by
  unfold DotDims.lhsIdx
  rw [dif_neg (show ¬(0 : Fin S512x512.rank) ∈ dot_S512x512_S1536x512_S512x1536_1_1_0_0_n_n.lhsBatch by decide),
    dif_pos (show (0 : Fin S512x512.rank) ∈ dot_S512x512_S1536x512_S512x1536_1_1_0_0_n_n.lhsNonContracting by decide)]
  rfl

/-- The right operand's row is the output's column. -/
theorem dot_rhs0 (j : S512x1536.Idx) (k : dot_S512x512_S1536x512_S512x1536_1_1_0_0_n_n.contr.Idx) :
    (dot_S512x512_S1536x512_S512x1536_1_1_0_0_n_n.rhsIdx j k 0).val = (j 1).val := by
  unfold DotDims.rhsIdx
  rw [dif_neg (show ¬(0 : Fin S1536x512.rank) ∈ dot_S512x512_S1536x512_S512x1536_1_1_0_0_n_n.rhsBatch by decide),
    dif_pos (show (0 : Fin S1536x512.rank) ∈ dot_S512x512_S1536x512_S512x1536_1_1_0_0_n_n.rhsNonContracting by decide)]
  rfl

/-- The product of the activation block with the transposed weight block, into zero, at an entry: the inner product of
    row r of the one with row q of the other. -/
theorem matmul_apply (a : FVec Ideal S512x512 .bf16) (w : FVec Ideal S1536x512 .bf16) (r : Fin 512) (q : Fin 1536) :
    matmul dot_S512x512_S1536x512_S512x1536_1_1_0_0_n_n none a w (constant (F := Ideal) S512x1536 .f32 0x00000000#32) (ix2 r q)
      = ∑ k : Fin 512, a (ix2 r k) * w (ix2 q k) :=
  LibDotNT.matmul_zero_apply dot_S512x512_S1536x512_S512x1536_1_1_0_0_n_n rfl rfl rfl rfl dot_lhs0 dot_rhs0 none a w r q

/-- One strip's update at an entry, for any activation block, weight block and strip as found. -/
theorem strip_apply (a : FVec Ideal S512x512 .bf16) (w : FVec Ideal S1536x512 .bf16) (o : FVec Ideal S512x1536 .f32)
    (r : Fin 512) (q : Fin 1536) :
    addf (shapeCast S512x1536 o Facts₀.shapeCasts_S512x1536_S512x1536)
        (matmul dot_S512x512_S1536x512_S512x1536_1_1_0_0_n_n none a
          (shapeCast S1536x512 w Facts₀.shapeCasts_S1536x512_S1536x512)
          (constant (F := Ideal) S512x1536 .f32 0x00000000#32)) (ix2 r q)
      = o (ix2 r q) + ∑ k : Fin 512, a (ix2 r k) * w (ix2 q k) := by
  rw [shapeCast_self, shapeCast_self]
  exact congrArg (o (ix2 r q) + ·) (matmul_apply a w r q)

/-! ## The payloads -/

/-- The fill at column tile 0 is zero everywhere. -/
theorem pay2_apply (j : S512x6144.Idx) : k0_pay2 (F := Ideal) j = 0 :=
  Ideal.ofBits_zero_f32

/-- The cast of the activation block to its own shape is the block. -/
theorem pay3_eq (v3 : Vec Ideal S512x512 .bf16) : k0_pay3 v3 = v3 :=
  shapeCast_self v3 _

/-- The first strip's stored entry. -/
theorem pay4_apply (v3 : Vec Ideal S512x512 .bf16) (v5 : Vec Ideal S1536x512 .bf16) (v8 : Vec Ideal S512x1536 .f32)
    (r : Fin 512) (q : Fin 1536) :
    k0_pay4 v3 v5 v8 (ix2 r q) = v8 (ix2 r q) + ∑ k : Fin 512, v3 (ix2 r k) * v5 (ix2 q k) := by
  unfold k0_pay4
  rw [pay3_eq]
  exact strip_apply v3 v5 v8 r q

/-- The second strip's stored entry. -/
theorem pay5_apply (v3 : Vec Ideal S512x512 .bf16) (v12 : Vec Ideal S1536x512 .bf16) (v15 : Vec Ideal S512x1536 .f32)
    (r : Fin 512) (q : Fin 1536) :
    k0_pay5 v3 v12 v15 (ix2 r q) = v15 (ix2 r q) + ∑ k : Fin 512, v3 (ix2 r k) * v12 (ix2 q k) := by
  unfold k0_pay5
  rw [pay3_eq]
  exact strip_apply v3 v12 v15 r q

/-- The third strip's stored entry. -/
theorem pay6_apply (v3 : Vec Ideal S512x512 .bf16) (v19 : Vec Ideal S1536x512 .bf16) (v22 : Vec Ideal S512x1536 .f32)
    (r : Fin 512) (q : Fin 1536) :
    k0_pay6 v3 v19 v22 (ix2 r q) = v22 (ix2 r q) + ∑ k : Fin 512, v3 (ix2 r k) * v19 (ix2 q k) := by
  unfold k0_pay6
  rw [pay3_eq]
  exact strip_apply v3 v19 v22 r q

/-- The fourth strip's stored entry. -/
theorem pay1_apply (v3 : Vec Ideal S512x512 .bf16) (v26 : Vec Ideal S1536x512 .bf16) (v29 : Vec Ideal S512x1536 .f32)
    (r : Fin 512) (q : Fin 1536) :
    k0_pay1 (k0_pay3 v3) v26 v29 (ix2 r q) = v29 (ix2 r q) + ∑ k : Fin 512, v3 (ix2 r k) * v26 (ix2 q k) := by
  unfold k0_pay1
  rw [pay3_eq]
  exact strip_apply v3 v26 v29 r q

end Cert.Payload

end
-- ==== Proof.BlockStep.lean ====
/-
  What one run of the body leaves in the 512 × 6144 output block, at the ideal instance.

  Whatever the column tile, the body's four strip stores leave at entry (r, o) the entry as found plus the inner product,
  over the tile's 512 columns, of row r of the activation block with row o of the weight block: strip s covers the
  columns 1536 s … 1536 s + 1535, its partial product reads rows 1536 s … of the weight block, and no earlier strip
  store touches a later strip.  At column tile 0 "as found" is the zero the body first fills the block with.
-/
import proofs.«176679_j1915555414614_2_alg».proof.Proof.KI.Frame
import proofs.«176679_j1915555414614_2_alg».proof.Proof.Payload
import Idealize.ShloMosaic.Lib.Pipeline.CanonAppend

set_option maxRecDepth 16384

noncomputable section

namespace Cert.BlockStep

open Idealize.ShloMosaic Idealize.ShloMosaic.TcCoe Idealize.ShloMosaic.Tactic Idealize.ShloMosaic.ValueIdx
open Idealize.SL.Sem
open Cert.KernelIdeal Cert.KernelIdeal.Gen Cert.KernelIdeal.Hand
open scoped BigOperators

/-- Entry (r, o) after one step: the entry as found plus the tile's partial inner product. -/
def accAt (x0 : Vec Ideal S512x512 .bf16) (x1 : Vec Ideal S6144x512 .bf16) (prev : Vec Ideal S512x6144 .f32)
    (r : Fin 512) (o : Fin 6144) : EReal :=
  prev (ix2 r o) + ∑ k : Fin 512, x0 (ix2 r k) * x1 (ix2 o k)

/-- The block after one step. -/
def acc (x0 : Vec Ideal S512x512 .bf16) (x1 : Vec Ideal S6144x512 .bf16) (prev : Vec Ideal S512x6144 .f32) :
    Vec Ideal S512x6144 .f32 :=
  fun j => accAt x0 x1 prev (j 0) (j 1)

theorem hz : (![0, 0] : Fin 2 → Nat) = fun _ => 0 := funext fun a => by fin_cases a <;> rfl

/-- Entry (r, q) of the strip starting at column d is entry (r, d + q) of the block. -/
theorem strip_idx (d : ℕ) (hd : d + 1536 ≤ 6144) (inb : ∀ a, (![0, d] : Fin 2 → ℕ) a + S512x1536.size a ≤ S512x6144.size a)
    (r : Fin 512) (q : Fin 1536) :
    (Rect.unit (s := S512x6144) ![0, d] S512x1536.size inb).idx (ix2 r q) = ix2 r ⟨d + q.val, by omega⟩ := by
  funext a; apply Fin.ext
  match a with
  | ⟨0, _⟩ => show 0 + 1 * r.val = r.val; omega
  | ⟨1, _⟩ => show d + 1 * q.val = d + q.val; omega

/-- Entry (q, k) of the weight rows starting at row d is entry (d + q, k) of the weight block. -/
theorem rows_idx (d : ℕ) (hd : d + 1536 ≤ 6144) (inb : ∀ a, (![d, 0] : Fin 2 → ℕ) a + S1536x512.size a ≤ S6144x512.size a)
    (q : Fin 1536) (k : Fin 512) :
    (Rect.unit (s := S6144x512) ![d, 0] S1536x512.size inb).idx (ix2 q k) = ix2 ⟨d + q.val, by omega⟩ k := by
  funext a; apply Fin.ext
  match a with
  | ⟨0, _⟩ => show d + 1 * q.val = d + q.val; omega
  | ⟨1, _⟩ => show 0 + 1 * k.val = k.val; omega

/-- A strip store whose payload is "the strip as found plus the partial product" is the strip of `acc`. -/
theorem strip_piece (x0 : Vec Ideal S512x512 .bf16) (x1 : Vec Ideal S6144x512 .bf16) (prev : Vec Ideal S512x6144 .f32)
    (d : ℕ) (hd : d + 1536 ≤ 6144) (inbO : ∀ a, (![0, d] : Fin 2 → ℕ) a + S512x1536.size a ≤ S512x6144.size a)
    (inbW : ∀ a, (![d, 0] : Fin 2 → ℕ) a + S1536x512.size a ≤ S6144x512.size a)
    (w : Vec Ideal S512x1536 .f32)
    (hw : ∀ (r : Fin 512) (q : Fin 1536), w (ix2 r q)
      = View.ld prev (Rect.unit (s := S512x6144) ![0, d] S512x1536.size inbO) (ix2 r q)
        + ∑ k : Fin 512, x0 (ix2 r k) * View.ld x1 (Rect.unit (s := S6144x512) ![d, 0] S1536x512.size inbW) (ix2 q k))
    (x : S512x1536.Idx) :
    w x = acc x0 x1 prev ((Rect.unit (s := S512x6144) ![0, d] S512x1536.size inbO).emb x) := by
  obtain ⟨r, q, rfl⟩ : ∃ (r : Fin 512) (q : Fin 1536), x = ix2 r q := ⟨x 0, x 1, eq_ix2 x⟩
  rw [hw r q]
  show prev ((Rect.unit (s := S512x6144) ![0, d] S512x1536.size inbO).idx (ix2 r q))
      + ∑ k : Fin 512, x0 (ix2 r k) * x1 ((Rect.unit (s := S6144x512) ![d, 0] S1536x512.size inbW).idx (ix2 q k))
    = acc x0 x1 prev ((Rect.unit (s := S512x6144) ![0, d] S512x1536.size inbO).idx (ix2 r q))
  rw [strip_idx d hd inbO r q]
  simp only [rows_idx d hd inbW]
  rfl

/-! ## A later column tile -/

/-- At a later column tile the body leaves the block as found plus the tile's partial product: its four strip stores
    are the four strips of that one function. -/
theorem out_B (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc : ¬cond0_0 i)
    (x0 : Vec Ideal S512x512 .bf16) (x1 : Vec Ideal S6144x512 .bf16) (xo2 : Vec Ideal S512x6144 .f32) :
    out0_B_2 (F := Ideal) c i arg2 harg2 arg3 harg3 arg4 harg4 hc x0 x1 xo2 = acc x0 x1 xo2 := by
  unfold out0_B_2
  rw [View.read_writes_eq_canon _ _ _ (cover0_B_2 c i arg2 harg2 arg3 harg3 arg4 harg4 hc x0 x1 xo2)]
  funext y
  refine View.canon_apply_of_pieces (acc x0 x1 xo2) _ ?_ y (cover0_B_2 c i arg2 harg2 arg3 harg3 arg4 harg4 hc x0 x1 xo2 y)
  unfold kernelRun0_B
  dsimp only
  sl_unfold_words
  intro p hp x
  simp only [List.mem_cons, List.not_mem_nil, or_false] at hp
  rcases hp with rfl | rfl | rfl | rfl
  · refine strip_piece x0 x1 xo2 4608 (by omega) Facts₀.inb_S512x6144_S512x1536_0_4608 Facts₀.inb_S6144x512_S1536x512_4608_0 _ (fun r q => ?_) x
    refine (Cert.Payload.pay1_apply _ _ _ r q).trans ?_
    simp only [View.readAt_eq_ld, harg2.read_unread, harg3.read_unread, harg4.read_unread]
    exact congrArg (_ + ·) (Finset.sum_congr rfl fun k _ =>
      congrArg (· * _) (congrFun (View.ld_unit_zero (S := S512x512) hz _ x0) (ix2 r k)))
  · refine strip_piece x0 x1 xo2 3072 (by omega) Facts₀.inb_S512x6144_S512x1536_0_3072 Facts₀.inb_S6144x512_S1536x512_3072_0 _ (fun r q => ?_) x
    refine (Cert.Payload.pay6_apply _ _ _ r q).trans ?_
    simp only [View.readAt_eq_ld, harg2.read_unread, harg3.read_unread, harg4.read_unread]
    exact congrArg (_ + ·) (Finset.sum_congr rfl fun k _ =>
      congrArg (· * _) (congrFun (View.ld_unit_zero (S := S512x512) hz _ x0) (ix2 r k)))
  · refine strip_piece x0 x1 xo2 1536 (by omega) Facts₀.inb_S512x6144_S512x1536_0_1536 Facts₀.inb_S6144x512_S1536x512_1536_0 _ (fun r q => ?_) x
    refine (Cert.Payload.pay5_apply _ _ _ r q).trans ?_
    simp only [View.readAt_eq_ld, harg2.read_unread, harg3.read_unread, harg4.read_unread]
    exact congrArg (_ + ·) (Finset.sum_congr rfl fun k _ =>
      congrArg (· * _) (congrFun (View.ld_unit_zero (S := S512x512) hz _ x0) (ix2 r k)))
  · refine strip_piece x0 x1 xo2 0 (by omega) Facts₀.inb_S512x6144_S512x1536_0_0 Facts₀.inb_S6144x512_S1536x512_0_0 _ (fun r q => ?_) x
    refine (Cert.Payload.pay4_apply _ _ _ r q).trans ?_
    simp only [View.readAt_eq_ld, harg2.read_unread, harg3.read_unread, harg4.read_unread]
    exact congrArg (_ + ·) (Finset.sum_congr rfl fun k _ =>
      congrArg (· * _) (congrFun (View.ld_unit_zero (S := S512x512) hz _ x0) (ix2 r k)))

/-! ## Column tile 0 -/

/-- An entry at or past column `d` lies in no strip that ends at or before column `d`. -/
theorem not_mem_strip (d d' : ℕ) (h : d' + 1536 ≤ d) (inb' : ∀ a, (![0, d'] : Fin 2 → ℕ) a + S512x1536.size a ≤ S512x6144.size a)
    (r : Fin 512) (o : Fin 6144) (ho : d ≤ o.val) :
    (ix2 r o : S512x6144.Idx) ∉ (Rect.unit (s := S512x6144) ![0, d'] S512x1536.size inb').set := by
  intro hm
  have h2 : o.val < d' + 1536 := ((Rect.mem_set_unit.mp hm) 1).2
  omega

/-- So a store into such a strip does not change what is read there. -/
theorem canon_skip_strip (d d' : ℕ) (h : d' + 1536 ≤ d) (inb' : ∀ a, (![0, d'] : Fin 2 → ℕ) a + S512x1536.size a ≤ S512x6144.size a)
    (w : Vec Ideal S512x1536 .f32) (L : List (View.Piece (Elt Ideal) S512x6144 .f32)) (r : Fin 512) (o : Fin 6144) (ho : d ≤ o.val) :
    View.canon ((⟨Rect.unit (s := S512x6144) ![0, d'] S512x1536.size inb', w⟩ : View.Piece (Elt Ideal) S512x6144 .f32) :: L) (ix2 r o)
      = View.canon L (ix2 r o) :=
  View.canon_cons_of_not_mem _ _ (not_mem_strip d d' h inb' r o ho)

/-- At column tile 0 the body leaves the tile's partial product over zero: each strip is read back, before its store,
    through the earlier strips' stores (which do not touch it) down to the zero fill. -/
theorem out_A (c : Dev nD) (i : grid0.Coords) (arg2 : Memref sig .tc .vmem S512x512 .bf16) (harg2 : arg2.IsWhole) (arg3 : Memref sig .tc .vmem S6144x512 .bf16) (harg3 : arg3.IsWhole) (arg4 : Memref sig .tc .vmem S512x6144 .f32) (harg4 : arg4.IsWhole) (hc : cond0_0 i)
    (x0 : Vec Ideal S512x512 .bf16) (x1 : Vec Ideal S6144x512 .bf16) :
    out0_A_2 (F := Ideal) c i arg2 harg2 arg3 harg3 arg4 harg4 hc x0 x1 = acc x0 x1 (fun _ => 0) := by
  unfold out0_A_2
  rw [View.read_writes_eq_canon _ _ _ (cover0_A_2 c i arg2 harg2 arg3 harg3 arg4 harg4 hc x0 x1)]
  funext y
  unfold kernelRun0_A
  dsimp only
  sl_unfold_words
  rw [show ∀ (a b c d e : View.Piece (Elt Ideal) S512x6144 .f32), [a, b, c, d, e] = [a, b, c, d] ++ [e] from fun _ _ _ _ _ => rfl]
  refine View.canon_append_of_pieces (acc x0 x1 (fun _ => 0)) _ _ ?_ y (View.cover_of_tiledL (s := S512x6144) _ S512x1536.size (by sl_kernel_rfl) y)
  intro p hp x
  simp only [List.mem_cons, List.not_mem_nil, or_false] at hp
  rcases hp with rfl | rfl | rfl | rfl
  · refine strip_piece x0 x1 (fun _ => 0) 4608 (by omega) Facts₀.inb_S512x6144_S512x1536_0_4608 Facts₀.inb_S6144x512_S1536x512_4608_0 _ (fun r q => ?_) x
    refine (Cert.Payload.pay1_apply _ _ _ r q).trans ?_
    refine congrArg₂ (· + ·) ?_ (Finset.sum_congr rfl fun k _ => congrArg₂ (· * ·) ?_ ?_)
    · rw [View.readCov_eq_canon']
      show View.canon _ ((Rect.unit (s := S512x6144) ![0, 4608] S512x1536.size Facts₀.inb_S512x6144_S512x1536_0_4608).idx (ix2 r q)) = 0
      rw [strip_idx 4608 (by omega) _ r q]
      refine (canon_skip_strip 4608 3072 (by omega) _ _ _ r _ (Nat.le_add_right _ _)).trans ?_
      refine (canon_skip_strip 4608 1536 (by omega) _ _ _ r _ (Nat.le_add_right _ _)).trans ?_
      refine (canon_skip_strip 4608 0 (by omega) _ _ _ r _ (Nat.le_add_right _ _)).trans ?_
      rw [View.canon_unit_zero hz]
      exact Cert.Payload.pay2_apply _
    · rw [View.readAt_eq_ld, harg2.read_unread]
      exact congrFun (View.ld_unit_zero (S := S512x512) hz _ x0) (ix2 r k)
    · rw [View.readAt_eq_ld, harg3.read_unread]
  · refine strip_piece x0 x1 (fun _ => 0) 3072 (by omega) Facts₀.inb_S512x6144_S512x1536_0_3072 Facts₀.inb_S6144x512_S1536x512_3072_0 _ (fun r q => ?_) x
    refine (Cert.Payload.pay6_apply _ _ _ r q).trans ?_
    refine congrArg₂ (· + ·) ?_ (Finset.sum_congr rfl fun k _ => congrArg₂ (· * ·) ?_ ?_)
    · rw [View.readCov_eq_canon']
      show View.canon _ ((Rect.unit (s := S512x6144) ![0, 3072] S512x1536.size Facts₀.inb_S512x6144_S512x1536_0_3072).idx (ix2 r q)) = 0
      rw [strip_idx 3072 (by omega) _ r q]
      refine (canon_skip_strip 3072 1536 (by omega) _ _ _ r _ (Nat.le_add_right _ _)).trans ?_
      refine (canon_skip_strip 3072 0 (by omega) _ _ _ r _ (Nat.le_add_right _ _)).trans ?_
      rw [View.canon_unit_zero hz]
      exact Cert.Payload.pay2_apply _
    · rw [View.readAt_eq_ld, harg2.read_unread]
      exact congrFun (View.ld_unit_zero (S := S512x512) hz _ x0) (ix2 r k)
    · rw [View.readAt_eq_ld, harg3.read_unread]
  · refine strip_piece x0 x1 (fun _ => 0) 1536 (by omega) Facts₀.inb_S512x6144_S512x1536_0_1536 Facts₀.inb_S6144x512_S1536x512_1536_0 _ (fun r q => ?_) x
    refine (Cert.Payload.pay5_apply _ _ _ r q).trans ?_
    refine congrArg₂ (· + ·) ?_ (Finset.sum_congr rfl fun k _ => congrArg₂ (· * ·) ?_ ?_)
    · rw [View.readCov_eq_canon']
      show View.canon _ ((Rect.unit (s := S512x6144) ![0, 1536] S512x1536.size Facts₀.inb_S512x6144_S512x1536_0_1536).idx (ix2 r q)) = 0
      rw [strip_idx 1536 (by omega) _ r q]
      refine (canon_skip_strip 1536 0 (by omega) _ _ _ r _ (Nat.le_add_right _ _)).trans ?_
      rw [View.canon_unit_zero hz]
      exact Cert.Payload.pay2_apply _
    · rw [View.readAt_eq_ld, harg2.read_unread]
      exact congrFun (View.ld_unit_zero (S := S512x512) hz _ x0) (ix2 r k)
    · rw [View.readAt_eq_ld, harg3.read_unread]
  · refine strip_piece x0 x1 (fun _ => 0) 0 (by omega) Facts₀.inb_S512x6144_S512x1536_0_0 Facts₀.inb_S6144x512_S1536x512_0_0 _ (fun r q => ?_) x
    refine (Cert.Payload.pay4_apply _ _ _ r q).trans ?_
    refine congrArg₂ (· + ·) ?_ (Finset.sum_congr rfl fun k _ => congrArg₂ (· * ·) ?_ ?_)
    · rw [View.readCov_eq_canon']
      show View.canon _ ((Rect.unit (s := S512x6144) ![0, 0] S512x1536.size Facts₀.inb_S512x6144_S512x1536_0_0).idx (ix2 r q)) = 0
      rw [strip_idx 0 (by omega) _ r q]

      rw [View.canon_unit_zero hz]
      exact Cert.Payload.pay2_apply _
    · rw [View.readAt_eq_ld, harg2.read_unread]
      exact congrFun (View.ld_unit_zero (S := S512x512) hz _ x0) (ix2 r k)
    · rw [View.readAt_eq_ld, harg3.read_unread]

end Cert.BlockStep

end
-- ==== Proof.Blocks.lean ====
import proofs.«176679_j1915555414614_2_alg».proof.Proof.KI.Frame
import Idealize.ShloMosaic.Lib.Pipeline.Value
import Idealize.ShloMosaic.Lib.ValueIdx

/-
  The geometry of the kernel's three windows.

  The grid is 16 row tiles by 8 column tiles; point t is row tile t / 8, column tile t % 8.  The activations' window
  reads the 512 × 512 block at (t / 8, t % 8) of the 8192 × 4096 array; the weights' window reads the 6144 × 512 block at
  (0, t % 8) of the 6144 × 4096 array; the output's window is the 512 × 6144 block at (t / 8, 0) of the 8192 × 6144 array,
  written back after the last column tile of each row tile.  A block's element (r, k) is the array's element at block
  index × block size + (r, k) on each axis.  Every row R of the output lies in row tile R / 512, whose block is written
  back at point 8 · (R / 512) + 7; so if every written-back block is its block of one array, the output ends as that array.
-/

set_option maxRecDepth 16384

noncomputable section

namespace Cert.Blocks

open Cert.KernelIdeal Cert.KernelIdeal.Gen Cert.KernelIdeal.Hand Idealize.ShloMosaic Idealize.ShloMosaic.ValueIdx
  Idealize.ShloMosaic.TcCoe Idealize.SL.Sem
open Idealize.ShloMosaic.Pipeline (Dat)

variable (m : (ℓ : Loc nD τ sig) → Buf (Elt Ideal) ℓ)

/-- The printed index maps, decided over the 128 grid points. -/
theorem idx_facts : ∀ t : Fin cfg0.N,
    win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = t.val / 8 ∧ win0_2.index t (1 : Fin 2) = 0 :=
  (by decide +kernel : ∀ t : Fin grid0.N, _)

/-- The activations' block at point t, at (r, k): the array at row 512 · (t / 8) + r, column 512 · (t % 8) + k. -/
theorem xblk_apply (c : Dev nD) (t : Fin cfg0.N) (r k : Fin 512)
    (hr : 512 * (t.val / 8) + r.val < 8192) (hk : 512 * (t.val % 8) + k.val < 4096) :
    (iblk m c 0 t : Vec Ideal S512x512 .bf16) (ix2 r k)
      = (V m c main_v19 : S8192x4096.Idx → EReal) (ix2 ⟨512 * (t.val / 8) + r.val, hr⟩ ⟨512 * (t.val % 8) + k.val, hk⟩) := by
  obtain ⟨e0, e1, -, -, -, -⟩ := idx_facts t
  unfold iblk
  rw [View.read_apply]
  show V m c main_v19 _ = V m c main_v19 _
  refine congrArg (V m c main_v19) ?_
  funext a
  apply Fin.ext
  match a with
  | ⟨0, _⟩ => show win0_0.index t (0 : Fin 2) * 512 + 1 * r.val = 512 * (t.val / 8) + r.val; omega
  | ⟨1, _⟩ => show win0_0.index t (1 : Fin 2) * 512 + 1 * k.val = 512 * (t.val % 8) + k.val; omega

/-- The weights' block at point t, at (o, k): the array at row o, column 512 · (t % 8) + k. -/
theorem wblk_apply (c : Dev nD) (t : Fin cfg0.N) (o : Fin 6144) (k : Fin 512)
    (hk : 512 * (t.val % 8) + k.val < 4096) :
    (iblk m c 1 t : Vec Ideal S6144x512 .bf16) (ix2 o k)
      = (V m c main_v18 : S6144x4096.Idx → EReal) (ix2 o ⟨512 * (t.val % 8) + k.val, hk⟩) := by
  obtain ⟨-, -, e2, e3, -, -⟩ := idx_facts t
  unfold iblk
  rw [View.read_apply]
  show V m c main_v18 _ = V m c main_v18 _
  refine congrArg (V m c main_v18) ?_
  funext a
  apply Fin.ext
  match a with
  | ⟨0, _⟩ => show win0_1.index t (0 : Fin 2) * 6144 + 1 * o.val = o.val; omega
  | ⟨1, _⟩ => show win0_1.index t (1 : Fin 2) * 512 + 1 * k.val = 512 * (t.val % 8) + k.val; omega

/-- What a point that writes the output's block back writes is its block of Gf, when the staging buffer there holds Gf's
    rows 512 · (t / 8) … 512 · (t / 8) + 511. -/
theorem flushed_eq (c : Dev nD) (Gf : S8192x6144.Idx → EReal)
    (h : ∀ (t : Fin cfg0.N), t.val % 8 = 7 → ∀ (r : Fin 512) (o : Fin 6144) (hr : 512 * (t.val / 8) + r.val < 8192),
        (outsAt0 m c t.val t.isLt : Vec Ideal S512x6144 .f32) (ix2 r o) = Gf (ix2 ⟨512 * (t.val / 8) + r.val, hr⟩ o))
    (t : Fin cfg0.N) (hf : (cfg0.win 2).flush t = true) :
    (dats m 0 c).flushed 2 t = ((cfg0.win 2).blk t).view.read (Elt Ideal) Gf := by
  have h7 : t.val % 8 = 7 := (flush0_2 t).mp hf
  have hN : t.val < 128 := lt_of_lt_of_eq t.isLt (show cfg0.N = 128 from N_0)
  obtain ⟨-, -, -, -, e4, e5⟩ := idx_facts t
  show (cfg0.win 2).cut (grid0.coords t) ((dats m 0 c).after 2 t) = _
  rw [after0_2]
  refine funext fun (j : S512x6144.Idx) => ?_
  obtain ⟨r, o, rfl⟩ : ∃ (r : Fin 512) (o : Fin 6144), j = ix2 r o := ⟨j 0, j 1, eq_ix2 j⟩
  rw [View.read_apply]
  show (outsAt0 m c t.val t.isLt : Vec Ideal S512x6144 .f32) (ix2 r o) = Gf _
  refine (h t h7 r o (by omega)).trans (congrArg Gf ?_)
  funext a
  apply Fin.ext
  match a with
  | ⟨0, _⟩ => show 512 * (t.val / 8) + r.val = win0_2.index t (0 : Fin 2) * 512 + 1 * r.val; omega
  | ⟨1, _⟩ => show o.val = win0_2.index t (1 : Fin 2) * 6144 + 1 * o.val; omega

/-- An index of the output array is in point t's block iff each coordinate is in the block's range on its axis. -/
theorem mem_blk (t : Fin cfg0.N) (i : S8192x6144.Idx) :
    i ∈ ((cfg0.win 2).blk t).view.set ↔ ∀ a : Fin 2, win0_2.index t a * S512x6144.size a ≤ (i a).val
      ∧ (i a).val < win0_2.index t a * S512x6144.size a + S512x6144.size a := by
  show i ∈ ((View.whole main_v20).slice (win0_2.rect t)).set ↔ _
  rw [View.set_slice_whole, Rect.mem_set_unit]
  exact Iff.rfl

/-- The output array after the run is Gf. -/
theorem final (c : Dev nD) (Gf : S8192x6144.Idx → EReal)
    (h : ∀ (t : Fin cfg0.N), t.val % 8 = 7 → ∀ (r : Fin 512) (o : Fin 6144) (hr : 512 * (t.val / 8) + r.val < 8192),
        (outsAt0 m c t.val t.isLt : Vec Ideal S512x6144 .f32) (ix2 r o) = Gf (ix2 ⟨512 * (t.val / 8) + r.val, hr⟩ o)) :
    (dats m 0 c).arrAt 2 cfg0.N = Gf :=
  (dats m 0 c).arrAt_eq_of_cover 2 Gf (flushed_eq m c Gf h) fun i => by
    have hi0 : (i 0).val < 8192 := (i 0).isLt
    have hi1 : (i 1).val < 6144 := (i 1).isLt
    have hN : cfg0.N = 128 := N_0
    let t : Fin cfg0.N := ⟨8 * ((i 0).val / 512) + 7, by rw [hN]; omega⟩
    have ht : t.val = 8 * ((i 0).val / 512) + 7 := rfl
    obtain ⟨-, -, -, -, e4, e5⟩ := idx_facts t
    refine ⟨t, (flush0_2 t).mpr (by rw [ht]; omega), ?_⟩
    rw [mem_blk]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 6144 ≤ (i 1).val ∧ (i 1).val < win0_2.index t (1 : Fin 2) * 6144 + 6144; omega

end Cert.Blocks

end
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.Spec.lean ====
/-
  The value both programs compute, as one function of the argument arrays.

  The three weight arrays, each already multiplied block by block by its scales (the same chain of reshapes,
  broadcasts and one product in both programs, never opened here), are stacked along their rows into one
  6144 × 4096 array `wall`.  The result at (t, o) is the inner product over all 4096 columns of row t of the
  activations with row o of `wall`.  The kernel reaches it eight column tiles of 512 at a time, adding each
  tile's partial inner product to a running block that starts at zero; regrouping a sum of 4096 terms into
  eight sums of 512 is a law of any commutative monoid, so it holds on the extended reals with no finiteness
  assumption.
-/
import Idealize.ShloMosaic.PureOps.Ideal
import Idealize.ShloMosaic.Lib.ValueIdx
import proofs.«176679_j1915555414614_2_alg».proof.Proof.LibERealStats

noncomputable section

namespace Cert.Spec

open Idealize.ShloMosaic Idealize.ShloMosaic.ValueIdx
open scoped BigOperators

abbrev SX : Shape := ⟨2, ![8192, 4096]⟩
abbrev SA : Shape := ⟨2, ![4096, 4096]⟩
abbrev SB : Shape := ⟨2, ![1024, 4096]⟩
abbrev SW : Shape := ⟨2, ![6144, 4096]⟩
abbrev SO : Shape := ⟨2, ![8192, 6144]⟩

abbrev SsA : Shape := ⟨2, ![32, 32]⟩
abbrev SsB : Shape := ⟨2, ![8, 32]⟩
abbrev S4A : Shape := ⟨4, ![32, 128, 32, 128]⟩
abbrev S4As : Shape := ⟨4, ![32, 1, 32, 1]⟩
abbrev S4B : Shape := ⟨4, ![8, 128, 32, 128]⟩
abbrev S4Bs : Shape := ⟨4, ![8, 1, 32, 1]⟩

/-- A 4096 × 4096 weight array scaled block by block: viewed as 32 × 128 × 32 × 128, multiplied by its 32 × 32 scales
    spread over the two inner axes, and viewed flat again.  Both programs apply exactly this chain; it is carried as one
    function and never read at an index. -/
def dqA (h1 : SA.ShapeCasts S4A) (h2 : SsA.BroadcastsInDim S4As (![0, 2] : Fin 2 → Fin S4As.rank))
    (h3 : S4As.BroadcastsInDim S4A (![0, 1, 2, 3] : Fin 4 → Fin S4A.rank)) (h4 : S4A.ShapeCasts SA)
    (w : FVec Ideal SA .f32) (s : FVec Ideal SsA .f32) : FVec Ideal SA .f32 :=
  shapeCast SA (mulf (shapeCast S4A w h1) (broadcastInDim S4A ![0, 1, 2, 3] h3 (broadcastInDim S4As ![0, 2] h2 s))) h4

/-- The same for a 1024 × 4096 weight array and its 8 × 32 scales. -/
def dqB (h1 : SB.ShapeCasts S4B) (h2 : SsB.BroadcastsInDim S4Bs (![0, 2] : Fin 2 → Fin S4Bs.rank))
    (h3 : S4Bs.BroadcastsInDim S4B (![0, 1, 2, 3] : Fin 4 → Fin S4B.rank)) (h4 : S4B.ShapeCasts SB)
    (w : FVec Ideal SB .f32) (s : FVec Ideal SsB .f32) : FVec Ideal SB .f32 :=
  shapeCast SB (mulf (shapeCast S4B w h1) (broadcastInDim S4B ![0, 1, 2, 3] h3 (broadcastInDim S4Bs ![0, 2] h2 s))) h4

/-- The stacked weights: rows 0–4095 from `A`, rows 4096–5119 from `B`, rows 5120–6143 from `C`. -/
def wall (hcat : Shape.Concatenates [SA, SB, SB] SW 0) (A : SA.Idx → EReal) (B C : SB.Idx → EReal) : SW.Idx → EReal :=
  concatenate SW 0 [⟨SA, A⟩, ⟨SB, B⟩, ⟨SB, C⟩] hcat

/-- The result at row `t`, column `o`: the inner product of row `t` of `x` with row `o` of the stacked weights. -/
def Gat (hcat : Shape.Concatenates [SA, SB, SB] SW 0) (x : SX.Idx → EReal) (A : SA.Idx → EReal) (B C : SB.Idx → EReal)
    (t : Fin 8192) (o : Fin 6144) : EReal :=
  ∑ k : Fin 4096, x (ix2 t k) * wall hcat A B C (ix2 o k)

/-- The whole result array. -/
def G (hcat : Shape.Concatenates [SA, SB, SB] SW 0) (x : SX.Idx → EReal) (A : SA.Idx → EReal) (B C : SB.Idx → EReal) :
    SO.Idx → EReal :=
  fun j => Gat hcat x A B C (j 0) (j 1)

/-- Eight tiles of 512 columns make the 4096 columns: the tiled inner product is the whole one. -/
theorem sum_tiles_8_512 (f : ℕ → EReal) :
    ∑ i : Fin 8, ∑ k : Fin 512, f (i.val * 512 + k.val) = ∑ k : Fin 4096, f k.val :=
  Cert.LibERealStats.sum_tiles_of_eq 8 512 4096 rfl f

end Cert.Spec

end
-- ==== Proof.TileSum.lean ====
/-
  Partial inner products by column tile.

  Row R of the activations against row o of the stacked weights, restricted to the first n column tiles of 512 columns:
  `part X W R o n`.  One more tile adds that tile's 512 terms; eight tiles are all 4096 columns, so the eighth partial
  sum is the whole inner product.  Terms are indexed by a natural-number column so that a tile's columns are
  `i * 512 + k`; a column past the end (never met) counts as zero.
-/
import proofs.«176679_j1915555414614_2_alg».proof.Proof.Spec

noncomputable section

namespace Cert.TileSum

open Idealize.ShloMosaic Idealize.ShloMosaic.ValueIdx Cert.Spec
open scoped BigOperators

/-- The product at row `R` of the activations, row `o` of the weights and column `kk`. -/
def term (X : SX.Idx → EReal) (W : SW.Idx → EReal) (R : ℕ) (o : Fin 6144) (kk : ℕ) : EReal :=
  if h : R < 8192 ∧ kk < 4096 then X (ix2 ⟨R, h.1⟩ ⟨kk, h.2⟩) * W (ix2 o ⟨kk, h.2⟩) else 0

/-- A term inside the arrays is the product of the two entries. -/
theorem term_eq (X : SX.Idx → EReal) (W : SW.Idx → EReal) (R : ℕ) (hR : R < 8192) (o : Fin 6144) (kk kk' : ℕ)
    (hk : kk' < 4096) (e : kk = kk') :
    term X W R o kk = X (ix2 ⟨R, hR⟩ ⟨kk', hk⟩) * W (ix2 o ⟨kk', hk⟩) := by
  subst e; unfold term; rw [dif_pos ⟨hR, hk⟩]

/-- The inner product over the first `n` column tiles. -/
def part (X : SX.Idx → EReal) (W : SW.Idx → EReal) (R : ℕ) (o : Fin 6144) (n : ℕ) : EReal :=
  ∑ i ∈ Finset.range n, ∑ k : Fin 512, term X W R o (i * 512 + k.val)

theorem part_zero (X : SX.Idx → EReal) (W : SW.Idx → EReal) (R : ℕ) (o : Fin 6144) : part X W R o 0 = 0 :=
  Finset.sum_range_zero _

/-- One more tile adds its 512 terms. -/
theorem part_succ (X : SX.Idx → EReal) (W : SW.Idx → EReal) (R : ℕ) (o : Fin 6144) (n : ℕ) :
    part X W R o (n + 1) = part X W R o n + ∑ k : Fin 512, term X W R o (n * 512 + k.val) :=
  Finset.sum_range_succ _ _

/-- Eight tiles are the whole row: the eighth partial sum is the inner product over all 4096 columns. -/
theorem part_eight (X : SX.Idx → EReal) (W : SW.Idx → EReal) (R : ℕ) (hR : R < 8192) (o : Fin 6144) :
    part X W R o 8 = ∑ kk : Fin 4096, X (ix2 ⟨R, hR⟩ kk) * W (ix2 o kk) := by
  unfold part
  rw [Finset.sum_range (fun i => ∑ k : Fin 512, term X W R o (i * 512 + k.val)),
    Cert.Spec.sum_tiles_8_512 (fun kk => term X W R o kk)]
  exact Finset.sum_congr rfl fun kk _ => term_eq X W R hR o kk.val kk.val kk.isLt rfl

end Cert.TileSum

end
-- ==== Proof.Accumulate.lean ====
/-
  The running contents of the output block are the partial inner products by column tile.

  After the body at grid point n — row tile n / 8, column tile n % 8 — the output block's entry (r, o) is the inner product
  of row 512 (n / 8) + r of the activations with row o of the stacked weights over the first n % 8 + 1 column tiles.
  By induction on the point: at column tile 0 the body leaves the tile's partial product over zero; at a later column
  tile it adds the tile's partial product to what the point before left, which is the same row tile's previous partial
  sum.  The tile's partial product reads the two staged blocks, and a block's entry is the array's entry at block index
  times block size plus the entry's place in the block.
-/
import proofs.«176679_j1915555414614_2_alg».proof.Proof.BlockStep
import proofs.«176679_j1915555414614_2_alg».proof.Proof.Blocks
import proofs.«176679_j1915555414614_2_alg».proof.Proof.TileSum

set_option maxRecDepth 16384

noncomputable section

namespace Cert.Accumulate

open Idealize.ShloMosaic Idealize.ShloMosaic.TcCoe Idealize.ShloMosaic.ValueIdx
open Idealize.SL.Sem
open Cert.KernelIdeal Cert.KernelIdeal.Gen Cert.KernelIdeal.Hand
open Cert.BlockStep Cert.TileSum Cert.Blocks
open scoped BigOperators

variable (m : (ℓ : Loc nD τ sig) → Buf (Elt Ideal) ℓ) (c : Dev nD)

/-- The activations and the stacked weights as the region finds them. -/
abbrev X : Cert.Spec.SX.Idx → EReal := (V m c main_v19 : S8192x4096.Idx → EReal)
abbrev W : Cert.Spec.SW.Idx → EReal := (V m c main_v18 : S6144x4096.Idx → EReal)

/-- The activation block and the weight block staged at a point. -/
def xb (t : Fin cfg0.N) : Vec Ideal S512x512 .bf16 := iblk m c 0 t
def wb (t : Fin cfg0.N) : Vec Ideal S6144x512 .bf16 := iblk m c 1 t

/-- The partial product the body adds at point `n` is the 512 terms of column tile `n % 8` of row tile `n / 8`. -/
theorem tile_terms (n : ℕ) (h : n < cfg0.N) (tt i : ℕ) (htt : tt = n / 8) (hi : i = n % 8) (r : Fin 512) (o : Fin 6144) :
    ∑ k : Fin 512, xb m c ⟨n, h⟩ (ix2 r k) * wb m c ⟨n, h⟩ (ix2 o k)
      = ∑ k : Fin 512, term (X m c) (W m c) (512 * tt + r.val) o (i * 512 + k.val) := by
  subst htt hi
  have hN : n < 128 := lt_of_lt_of_eq h (show cfg0.N = 128 from N_0)
  refine Finset.sum_congr rfl fun k _ => ?_
  have hr : 512 * (n / 8) + r.val < 8192 := by omega
  have hk : 512 * (n % 8) + k.val < 4096 := by omega
  unfold xb wb
  rw [xblk_apply m c ⟨n, h⟩ r k hr hk, wblk_apply m c ⟨n, h⟩ o k hk]
  exact (term_eq (X m c) (W m c) _ hr o _ _ hk (by omega)).symm

/-- The running contents after point `n`: the partial inner products over the first `n % 8 + 1` column tiles. -/
theorem outsAt_eq (n : ℕ) : ∀ (h : n < cfg0.N) (r : Fin 512) (o : Fin 6144),
    (outsAt0 m c n h : Vec Ideal S512x6144 .f32) (ix2 r o)
      = part (X m c) (W m c) (512 * (n / 8) + r.val) o (n % 8 + 1) := by
  induction n with
  | zero =>
    intro h r o
    rw [outsAt0_A m c ⟨0, h⟩ rfl, out_A]
    show (0 : EReal) + ∑ k : Fin 512, xb m c ⟨0, h⟩ (ix2 r k) * wb m c ⟨0, h⟩ (ix2 o k)
      = part (X m c) (W m c) (512 * 0 + r.val) o (0 + 1)
    rw [tile_terms m c 0 h 0 0 rfl rfl r o, part_succ, part_zero]
  | succ n ih =>
    intro h r o
    have hN : n + 1 < 128 := lt_of_lt_of_eq h (show cfg0.N = 128 from N_0)
    by_cases h0 : (n + 1) % 8 = 0
    · rw [outsAt0_A m c ⟨n + 1, h⟩ h0, out_A]
      show (0 : EReal) + ∑ k : Fin 512, xb m c ⟨n + 1, h⟩ (ix2 r k) * wb m c ⟨n + 1, h⟩ (ix2 o k) = _
      rw [tile_terms m c (n + 1) h ((n + 1) / 8) 0 rfl h0.symm r o, h0, part_succ, part_zero]
    · rw [outsAt0_B m c ⟨n + 1, h⟩ h0, out_B]
      show (outsAt0 m c n (Nat.lt_of_succ_lt h) : Vec Ideal S512x6144 .f32) (ix2 r o)
        + ∑ k : Fin 512, xb m c ⟨n + 1, h⟩ (ix2 r k) * wb m c ⟨n + 1, h⟩ (ix2 o k) = _
      have e1 : (n + 1) / 8 = n / 8 := by omega
      have e2 : (n + 1) % 8 = n % 8 + 1 := by omega
      rw [ih (Nat.lt_of_succ_lt h) r o, tile_terms m c (n + 1) h (n / 8) (n % 8 + 1) e1.symm e2.symm r o, e1, e2]
      exact (part_succ (X m c) (W m c) _ o (n % 8 + 1)).symm

/-- At the last column tile of a row tile the block holds the whole inner products. -/
theorem outsAt_last (t : Fin cfg0.N) (h7 : t.val % 8 = 7) (r : Fin 512) (o : Fin 6144) (hr : 512 * (t.val / 8) + r.val < 8192) :
    (outsAt0 m c t.val t.isLt : Vec Ideal S512x6144 .f32) (ix2 r o)
      = ∑ kk : Fin 4096, X m c (ix2 ⟨512 * (t.val / 8) + r.val, hr⟩ kk) * W m c (ix2 o kk) := by
  rw [outsAt_eq m c t.val t.isLt r o, h7]
  exact part_eight (X m c) (W m c) _ hr o

end Cert.Accumulate

end
-- ==== Proof.LibNary3.lean ====
/-
  A host operation of THREE operands given as a literal family of references (a concatenation of three arrays),
  read at its result: the function applied to each operand's contents AT ITS OWN REFERENCE, so that the contents of
  the three operands can be rewritten further one by one; and the fold of a list of host operations over a
  concatenation of two lists is the fold of the second over the fold of the first.
-/
import Idealize.ShloMosaic.Lib.StableHlo.Run

noncomputable section

namespace Idealize.ShloMosaic.StableHlo

variable {τ : Topo} {sig : RefSig} {Val : EltTy → Type}

/-- The result of a three-operand operation, each operand's contents read at its own literal reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The contents after two lists of operations run one after the other. -/
theorem after_append (l₁ l₂ : List (HloOp τ sig Val)) (X : Valuation τ sig Val) :
    after (l₁ ++ l₂) X = after l₂ (after l₁ X) := by
  induction l₁ generalizing X with
  | nil => rfl
  | cons op ops ih => exact ih _

end Idealize.ShloMosaic.StableHlo

end
-- ==== Proof.HostPrefix.lean ====
/-
  What the two arrays the kernel stages hold when the region is entered.

  Before the region @main runs twenty host operations.  Eighteen of them scale the three weight arrays block by
  block (view as four axes, multiply by the scales spread over the inner axes, view flat again) and change the
  float format; the nineteenth stacks the three results along their rows; the twentieth changes the float format
  of the activations.  At the ideal values a change of float format is the identity, so the staged activations are
  the launched activations and the staged weights are the stack of the three scaled weight arrays.
-/
import proofs.«176679_j1915555414614_2_alg».proof.Proof.KI.Base
import proofs.«176679_j1915555414614_2_alg».proof.Proof.Spec
import proofs.«176679_j1915555414614_2_alg».proof.Proof.LibNary3
import Idealize.ShloMosaic.Lib.StableHlo.Run

noncomputable section

namespace Cert.HostPrefix

open Idealize.ShloMosaic Idealize.ShloMosaic.TcCoe Idealize.ShloMosaic.ValueIdx
open Cert.KernelIdeal Cert.KernelIdeal.Gen

/-- The staged activations are the launched activations. -/
theorem V_x (m : (ℓ : Loc nD τ sig) → Buf (Elt Ideal) ℓ) (c : Dev nD) :
    (Cert.KernelIdeal.Hand.V m c main_v19 : S8192x4096.Idx → EReal) = m ((c : Thread nD τ).loc main_arg0) := by
  show StableHlo.after hostOps0 (fun b => m (c, b)) (Proc.devRef .tc main_v19) = _
  after_results
  rfl

/-! ## The stacked weights

The first eighteen operations produce the three scaled arrays, one chain of six each; the last two stack them and
touch nothing else the stack reads. -/

/-- The last two operations: the stack of what the three scaled arrays hold before them. -/
theorem tail_v18 (Y : Valuation τ sig (Elt Ideal)) :
    (StableHlo.after (List.drop 18 hostOps0) Y (Proc.devRef .tc main_v18) : S6144x4096.Idx → EReal)
      = concatenate S6144x4096 0 [⟨S4096x4096, Y (Proc.devRef .tc main_v5)⟩, ⟨S1024x4096, Y (Proc.devRef .tc main_v11)⟩,
          ⟨S1024x4096, Y (Proc.devRef .tc main_v17)⟩] Facts₀.concatenates_S4096x4096_S1024x4096_S1024x4096_S6144x4096_d0 := by
  simp only [hostOps0, List.drop_succ_cons, List.drop_zero]
  after_results
  rfl

section
variable (a1 : Cert.Spec.SA.ShapeCasts Cert.Spec.S4A)
  (a2 : Cert.Spec.SsA.BroadcastsInDim Cert.Spec.S4As (![0, 2] : Fin 2 → Fin Cert.Spec.S4As.rank))
  (a3 : Cert.Spec.S4As.BroadcastsInDim Cert.Spec.S4A (![0, 1, 2, 3] : Fin 4 → Fin Cert.Spec.S4A.rank))
  (a4 : Cert.Spec.S4A.ShapeCasts Cert.Spec.SA)
  (b1 : Cert.Spec.SB.ShapeCasts Cert.Spec.S4B)
  (b2 : Cert.Spec.SsB.BroadcastsInDim Cert.Spec.S4Bs (![0, 2] : Fin 2 → Fin Cert.Spec.S4Bs.rank))
  (b3 : Cert.Spec.S4Bs.BroadcastsInDim Cert.Spec.S4B (![0, 1, 2, 3] : Fin 4 → Fin Cert.Spec.S4B.rank))
  (b4 : Cert.Spec.S4B.ShapeCasts Cert.Spec.SB)
  (m : (ℓ : Loc nD τ sig) → Buf (Elt Ideal) ℓ) (c : Dev nD)

/-- The first chain: the 4096 × 4096 weights scaled by their scales. -/
theorem pre_v5 :
    (StableHlo.after (List.take 18 hostOps0) (fun b => m (c, b)) (Proc.devRef .tc main_v5) : S4096x4096.Idx → EReal)
      = Cert.Spec.dqA a1 a2 a3 a4 (m ((c : Thread nD τ).loc main_arg1)) (m ((c : Thread nD τ).loc main_arg4)) := by
  simp only [hostOps0, List.take_succ_cons, List.take_zero]
  after_results
  rfl

/-- The second chain: the first 1024 × 4096 weights scaled by their scales. -/
theorem pre_v11 :
    (StableHlo.after (List.take 18 hostOps0) (fun b => m (c, b)) (Proc.devRef .tc main_v11) : S1024x4096.Idx → EReal)
      = Cert.Spec.dqB b1 b2 b3 b4 (m ((c : Thread nD τ).loc main_arg2)) (m ((c : Thread nD τ).loc main_arg5)) := by
  simp only [hostOps0, List.take_succ_cons, List.take_zero]
  after_results
  rfl

/-- The third chain: the second 1024 × 4096 weights scaled by their scales. -/
theorem pre_v17 :
    (StableHlo.after (List.take 18 hostOps0) (fun b => m (c, b)) (Proc.devRef .tc main_v17) : S1024x4096.Idx → EReal)
      = Cert.Spec.dqB b1 b2 b3 b4 (m ((c : Thread nD τ).loc main_arg3)) (m ((c : Thread nD τ).loc main_arg6)) := by
  simp only [hostOps0, List.take_succ_cons, List.take_zero]
  after_results
  rfl

end

/-- The staged weights are the stack of the three scaled weight arrays. -/
theorem V_w (hcat : Shape.Concatenates [Cert.Spec.SA, Cert.Spec.SB, Cert.Spec.SB] Cert.Spec.SW 0)
    (a1 : Cert.Spec.SA.ShapeCasts Cert.Spec.S4A)
    (a2 : Cert.Spec.SsA.BroadcastsInDim Cert.Spec.S4As (![0, 2] : Fin 2 → Fin Cert.Spec.S4As.rank))
    (a3 : Cert.Spec.S4As.BroadcastsInDim Cert.Spec.S4A (![0, 1, 2, 3] : Fin 4 → Fin Cert.Spec.S4A.rank))
    (a4 : Cert.Spec.S4A.ShapeCasts Cert.Spec.SA)
    (b1 : Cert.Spec.SB.ShapeCasts Cert.Spec.S4B)
    (b2 : Cert.Spec.SsB.BroadcastsInDim Cert.Spec.S4Bs (![0, 2] : Fin 2 → Fin Cert.Spec.S4Bs.rank))
    (b3 : Cert.Spec.S4Bs.BroadcastsInDim Cert.Spec.S4B (![0, 1, 2, 3] : Fin 4 → Fin Cert.Spec.S4B.rank))
    (b4 : Cert.Spec.S4B.ShapeCasts Cert.Spec.SB)
    (m : (ℓ : Loc nD τ sig) → Buf (Elt Ideal) ℓ) (c : Dev nD) :
    (Cert.KernelIdeal.Hand.V m c main_v18 : S6144x4096.Idx → EReal)
      = Cert.Spec.wall hcat
          (Cert.Spec.dqA a1 a2 a3 a4 (m ((c : Thread nD τ).loc main_arg1)) (m ((c : Thread nD τ).loc main_arg4)))
          (Cert.Spec.dqB b1 b2 b3 b4 (m ((c : Thread nD τ).loc main_arg2)) (m ((c : Thread nD τ).loc main_arg5)))
          (Cert.Spec.dqB b1 b2 b3 b4 (m ((c : Thread nD τ).loc main_arg3)) (m ((c : Thread nD τ).loc main_arg6))) := by
  show StableHlo.after hostOps0 (fun b => m (c, b)) (Proc.devRef .tc main_v18) = _
  have hsplit : (hostOps0 : List (HloOp τ sig (Elt Ideal))) = List.take 18 hostOps0 ++ List.drop 18 hostOps0 :=
    (List.take_append_drop 18 _).symm
  rw [hsplit, StableHlo.after_append]
  refine (tail_v18 _).trans ?_
  rw [pre_v5 a1 a2 a3 a4 m c, pre_v11 b1 b2 b3 b4 m c, pre_v17 b1 b2 b3 b4 m c]
  rfl

end Cert.HostPrefix

end
-- ==== Proof.KernelValue.lean ====
/-
  The idealized kernel's result array.

  The output array is written back one 512-row block per row tile, after the row tile's last column tile; the block then
  holds, at entry (r, o), the whole inner product of row 512 (row tile) + r of the activations with row o of the stacked
  weights.  The activations the kernel stages are the argument (rounding to a narrower float format changes nothing on
  the extended reals), and the stacked weights are the three scaled weight arrays one above the other.  So the result
  array is the specification's function of the seven arguments, and the arguments end as launched.
-/
import proofs.«176679_j1915555414614_2_alg».proof.Proof.Accumulate
import proofs.«176679_j1915555414614_2_alg».proof.Proof.HostPrefix

set_option maxRecDepth 16384

noncomputable section

namespace Cert.KernelValue

open Idealize.ShloMosaic Idealize.ShloMosaic.TcCoe Idealize.ShloMosaic.ValueIdx
open Idealize.SL.Sem
open Cert.KernelIdeal Cert.KernelIdeal.Gen Cert.KernelIdeal.Hand
open scoped BigOperators

variable (hcat : Shape.Concatenates [Cert.Spec.SA, Cert.Spec.SB, Cert.Spec.SB] Cert.Spec.SW 0)
    (a1 : Cert.Spec.SA.ShapeCasts Cert.Spec.S4A) (a2 : Cert.Spec.SsA.BroadcastsInDim Cert.Spec.S4As (![0, 2] : Fin 2 → Fin Cert.Spec.S4As.rank))
    (a3 : Cert.Spec.S4As.BroadcastsInDim Cert.Spec.S4A (![0, 1, 2, 3] : Fin 4 → Fin Cert.Spec.S4A.rank)) (a4 : Cert.Spec.S4A.ShapeCasts Cert.Spec.SA)
    (b1 : Cert.Spec.SB.ShapeCasts Cert.Spec.S4B) (b2 : Cert.Spec.SsB.BroadcastsInDim Cert.Spec.S4Bs (![0, 2] : Fin 2 → Fin Cert.Spec.S4Bs.rank))
    (b3 : Cert.Spec.S4Bs.BroadcastsInDim Cert.Spec.S4B (![0, 1, 2, 3] : Fin 4 → Fin Cert.Spec.S4B.rank)) (b4 : Cert.Spec.S4B.ShapeCasts Cert.Spec.SB)
variable (m : (ℓ : Loc nD τ sig) → Buf (Elt Ideal) ℓ) (ρ : Dev nD → PrngReg)

/-- The result array after the run is the specification's function of the arguments. -/
theorem final (c : Dev nD) :
    (dats m 0 c).arrAt 2 cfg0.N = Cert.Spec.G hcat (m ((c : Thread nD τ).loc main_arg0))
        (Cert.Spec.dqA a1 a2 a3 a4 (m ((c : Thread nD τ).loc main_arg1)) (m ((c : Thread nD τ).loc main_arg4)))
        (Cert.Spec.dqB b1 b2 b3 b4 (m ((c : Thread nD τ).loc main_arg2)) (m ((c : Thread nD τ).loc main_arg5)))
        (Cert.Spec.dqB b1 b2 b3 b4 (m ((c : Thread nD τ).loc main_arg3)) (m ((c : Thread nD τ).loc main_arg6))) :=
  Cert.Blocks.final m c _ fun t h7 r o hr => by
    rw [Cert.Accumulate.outsAt_last m c t h7 r o hr]
    show _ = Cert.Spec.Gat hcat _ _ _ _ ⟨_, hr⟩ o
    unfold Cert.Spec.Gat Cert.Accumulate.X Cert.Accumulate.W
    rw [Cert.HostPrefix.V_x m c, Cert.HostPrefix.V_w hcat a1 a2 a3 a4 b1 b2 b3 b4 m c]

/-- Every weakly fair execution of the idealized kernel's @main terminates without a fault, with the result array at the
    specification's function of the arguments and the arguments as launched. -/
theorem run : θ_run defs (onTc (τ := τ) (main (F := Ideal))) ⟨m, fun _ => 0, ρ⟩ (fun r => ∀ c : Dev nD,
      r.2.mem ((c.tc : Thread nD τ).loc main_v20) = Cert.Spec.G hcat (m ((c : Thread nD τ).loc main_arg0))
        (Cert.Spec.dqA a1 a2 a3 a4 (m ((c : Thread nD τ).loc main_arg1)) (m ((c : Thread nD τ).loc main_arg4)))
        (Cert.Spec.dqB b1 b2 b3 b4 (m ((c : Thread nD τ).loc main_arg2)) (m ((c : Thread nD τ).loc main_arg5)))
        (Cert.Spec.dqB b1 b2 b3 b4 (m ((c : Thread nD τ).loc main_arg3)) (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 2).trans (final hcat a1 a2 a3 a4 b1 b2 b3 b4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelValue

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.RefValue.lean ====
import proofs.«176679_j1915555414614_2_alg».proof.Proof.Gen.ReferenceIdeal.Read
import proofs.«176679_j1915555414614_2_alg».proof.Proof.Spec
import proofs.«176679_j1915555414614_2_alg».proof.Proof.LibPlainDot

/-
  The reference's result is the specification's function G.

  The reference multiplies the activations by the transpose of each of the three scaled weight arrays and joins the three
  products along the columns.  Column o of the joined array lies in the first product when o < 4096, in the second when
  4096 ≤ o < 5120, in the third otherwise; row o of the stacked weights lies in the first, second or third weight array
  under exactly the same three conditions, at the same offset.  An entry of a product with a transposed weight array is
  the inner product of a row of the activations with a ROW of that weight array.  So in each of the three cases both
  sides are the same sum over the 4096 columns.  No finiteness is used.
-/

noncomputable section

namespace Cert.RefValue

open Cert.ReferenceIdeal Cert.ReferenceIdeal.Gen Idealize.ShloMosaic Idealize.ShloMosaic.ValueIdx Idealize.ShloMosaic.TcCoe
  Idealize.SL.Sem Idealize.ShloMosaic.StableHlo
open scoped BigOperators

/-! ## The joined result at an index -/

section Join
variable {α : Type}

/-- The three products joined along the columns, at a column of the first product. -/
theorem join_apply_0 (u0 : S8192x4096.Idx → α) (u1 u2 : S8192x1024.Idx → α) (t : Fin 8192) (o : Fin 6144) (h : o.val < 4096) :
    concatenate S8192x6144 1 [⟨S8192x4096, u0⟩, ⟨S8192x1024, u1⟩, ⟨S8192x1024, u2⟩]
      concatenates_S8192x4096_S8192x1024_S8192x1024_S8192x6144_d1 (ix2 t o) = u0 (ix2 t ⟨o.val, h⟩) :=
  concatenate_apply_piece 1 [⟨S8192x4096, u0⟩, ⟨S8192x1024, u1⟩, ⟨S8192x1024, u2⟩]
    concatenates_S8192x4096_S8192x1024_S8192x1024_S8192x6144_d1 (ix2 t o) 0 (show (0 : Nat) < 3 by decide)
    S8192x4096 u0 rfl rfl 0 rfl (ix2 t ⟨o.val, h⟩)
    (fun b hb => match b, hb with
      | ⟨0, _⟩, _ => rfl
      | ⟨1, _⟩, hb => absurd rfl hb)
    (Nat.zero_add _)

/-- At a column of the second product. -/
theorem join_apply_1 (u0 : S8192x4096.Idx → α) (u1 u2 : S8192x1024.Idx → α) (t : Fin 8192) (o : Fin 6144)
    (h1 : 4096 ≤ o.val) (h2 : o.val < 5120) :
    concatenate S8192x6144 1 [⟨S8192x4096, u0⟩, ⟨S8192x1024, u1⟩, ⟨S8192x1024, u2⟩]
      concatenates_S8192x4096_S8192x1024_S8192x1024_S8192x6144_d1 (ix2 t o) = u1 (ix2 t ⟨o.val - 4096, by omega⟩) :=
  concatenate_apply_piece 1 [⟨S8192x4096, u0⟩, ⟨S8192x1024, u1⟩, ⟨S8192x1024, u2⟩]
    concatenates_S8192x4096_S8192x1024_S8192x1024_S8192x6144_d1 (ix2 t o) 1 (show (1 : Nat) < 3 by decide)
    S8192x1024 u1 rfl rfl 4096 rfl (ix2 t ⟨o.val - 4096, by omega⟩)
    (fun b hb => match b, hb with
      | ⟨0, _⟩, _ => rfl
      | ⟨1, _⟩, hb => absurd rfl hb)
    (by show 4096 + (o.val - 4096) = o.val; omega)

/-- At a column of the third product. -/
theorem join_apply_2 (u0 : S8192x4096.Idx → α) (u1 u2 : S8192x1024.Idx → α) (t : Fin 8192) (o : Fin 6144)
    (h : 5120 ≤ o.val) :
    concatenate S8192x6144 1 [⟨S8192x4096, u0⟩, ⟨S8192x1024, u1⟩, ⟨S8192x1024, u2⟩]
      concatenates_S8192x4096_S8192x1024_S8192x1024_S8192x6144_d1 (ix2 t o)
        = u2 (ix2 t ⟨o.val - 5120, by have := o.isLt; omega⟩) :=
  concatenate_apply_piece 1 [⟨S8192x4096, u0⟩, ⟨S8192x1024, u1⟩, ⟨S8192x1024, u2⟩]
    concatenates_S8192x4096_S8192x1024_S8192x1024_S8192x6144_d1 (ix2 t o) 2 (show (2 : Nat) < 3 by decide)
    S8192x1024 u2 rfl rfl 5120 rfl (ix2 t ⟨o.val - 5120, by have := o.isLt; omega⟩)
    (fun b hb => match b, hb with
      | ⟨0, _⟩, _ => rfl
      | ⟨1, _⟩, hb => absurd rfl hb)
    (by show 5120 + (o.val - 5120) = o.val; omega)

end Join

/-! ## The stacked weights at an index -/

/-- A row of the stacked weights that lies in the first weight array. -/
theorem wall_apply_0 (hcat : Shape.Concatenates [Cert.Spec.SA, Cert.Spec.SB, Cert.Spec.SB] Cert.Spec.SW 0)
    (A : Cert.Spec.SA.Idx → EReal) (B C : Cert.Spec.SB.Idx → EReal) (o : Fin 6144) (k : Fin 4096) (h : o.val < 4096) :
    Cert.Spec.wall hcat A B C (ix2 o k) = A (ix2 ⟨o.val, h⟩ k) :=
  concatenate_apply_piece 0 [⟨Cert.Spec.SA, A⟩, ⟨Cert.Spec.SB, B⟩, ⟨Cert.Spec.SB, C⟩] hcat (ix2 o k) 0
    (show (0 : Nat) < 3 by decide)
    Cert.Spec.SA A rfl rfl 0 rfl (ix2 ⟨o.val, h⟩ k)
    (fun b hb => match b, hb with
      | ⟨0, _⟩, hb => absurd rfl hb
      | ⟨1, _⟩, _ => rfl)
    (Nat.zero_add _)

/-- A row that lies in the second weight array. -/
theorem wall_apply_1 (hcat : Shape.Concatenates [Cert.Spec.SA, Cert.Spec.SB, Cert.Spec.SB] Cert.Spec.SW 0)
    (A : Cert.Spec.SA.Idx → EReal) (B C : Cert.Spec.SB.Idx → EReal) (o : Fin 6144) (k : Fin 4096)
    (h1 : 4096 ≤ o.val) (h2 : o.val < 5120) :
    Cert.Spec.wall hcat A B C (ix2 o k) = B (ix2 ⟨o.val - 4096, by omega⟩ k) :=
  concatenate_apply_piece 0 [⟨Cert.Spec.SA, A⟩, ⟨Cert.Spec.SB, B⟩, ⟨Cert.Spec.SB, C⟩] hcat (ix2 o k) 1
    (show (1 : Nat) < 3 by decide)
    Cert.Spec.SB B rfl rfl 4096 rfl (ix2 ⟨o.val - 4096, by omega⟩ k)
    (fun b hb => match b, hb with
      | ⟨0, _⟩, hb => absurd rfl hb
      | ⟨1, _⟩, _ => rfl)
    (by show 4096 + (o.val - 4096) = o.val; omega)

/-- A row that lies in the third weight array. -/
theorem wall_apply_2 (hcat : Shape.Concatenates [Cert.Spec.SA, Cert.Spec.SB, Cert.Spec.SB] Cert.Spec.SW 0)
    (A : Cert.Spec.SA.Idx → EReal) (B C : Cert.Spec.SB.Idx → EReal) (o : Fin 6144) (k : Fin 4096)
    (h : 5120 ≤ o.val) :
    Cert.Spec.wall hcat A B C (ix2 o k) = C (ix2 ⟨o.val - 5120, by have := o.isLt; omega⟩ k) :=
  concatenate_apply_piece 0 [⟨Cert.Spec.SA, A⟩, ⟨Cert.Spec.SB, B⟩, ⟨Cert.Spec.SB, C⟩] hcat (ix2 o k) 2
    (show (2 : Nat) < 3 by decide)
    Cert.Spec.SB C rfl rfl 5120 rfl (ix2 ⟨o.val - 5120, by have := o.isLt; omega⟩ k)
    (fun b hb => match b, hb with
      | ⟨0, _⟩, hb => absurd rfl hb
      | ⟨1, _⟩, _ => rfl)
    (by show 5120 + (o.val - 5120) = o.val; omega)

/-! ## A product with a transposed weight array at an index -/

/-- Row t of the activations against the transposed 4096 × 4096 array, at column o: the inner product with ROW o. -/
theorem dotA_apply (x : FVec Ideal S8192x4096 .f32) (A : FVec Ideal S4096x4096 .f32) (t : Fin 8192) (o : Fin 4096) :
    Host.dotGeneral (F := Ideal) dot_S8192x4096_S4096x4096_S8192x4096_1_0_0_1_n_n none x
        (transpose S4096x4096 [1, 0] A transposes_S4096x4096_S4096x4096_1_0) (ix2 t o)
      = ∑ k : Fin 4096, x (ix2 t k) * A (ix2 o k) := by
  refine (Cert.LibPlainDot.dotGeneral_apply dot_S8192x4096_S4096x4096_S8192x4096_1_0_0_1_n_n rfl rfl rfl rfl
    Read.lhs_main_v6_0 Read.rhs_main_v6_1 none .single x _ t o).trans ?_
  refine Finset.sum_congr rfl fun k _ => ?_
  rw [transpose_apply [1, 0] A transposes_S4096x4096_S4096x4096_1_0 (ix2 k o) (ix2 o k) (fun b => match b with
    | ⟨0, _⟩ => rfl
    | ⟨1, _⟩ => rfl)]

/-- The same against a transposed 1024 × 4096 array. -/
theorem dotB_apply (x : FVec Ideal S8192x4096 .f32) (B : FVec Ideal S1024x4096 .f32) (t : Fin 8192) (o : Fin 1024) :
    Host.dotGeneral (F := Ideal) dot_S8192x4096_S4096x1024_S8192x1024_1_0_0_1_n_n none x
        (transpose S4096x1024 [1, 0] B transposes_S1024x4096_S4096x1024_1_0) (ix2 t o)
      = ∑ k : Fin 4096, x (ix2 t k) * B (ix2 o k) := by
  refine (Cert.LibPlainDot.dotGeneral_apply dot_S8192x4096_S4096x1024_S8192x1024_1_0_0_1_n_n rfl rfl rfl rfl
    Read.lhs_main_v13_0 Read.rhs_main_v13_1 none .single x _ t o).trans ?_
  refine Finset.sum_congr rfl fun k _ => ?_
  rw [transpose_apply [1, 0] B transposes_S1024x4096_S4096x1024_1_0 (ix2 k o) (ix2 o k) (fun b => match b with
    | ⟨0, _⟩ => rfl
    | ⟨1, _⟩ => rfl)]

/-! ## The reference's result is G -/

/-- The three joined products are the specification's array, entry by entry. -/
theorem result_eq (hcat : Shape.Concatenates [Cert.Spec.SA, Cert.Spec.SB, Cert.Spec.SB] Cert.Spec.SW 0)
    (x : FVec Ideal S8192x4096 .f32) (A : FVec Ideal S4096x4096 .f32) (B C : FVec Ideal S1024x4096 .f32) :
    concatenate S8192x6144 1
        [⟨S8192x4096, Host.dotGeneral (F := Ideal) dot_S8192x4096_S4096x4096_S8192x4096_1_0_0_1_n_n none x
            (transpose S4096x4096 [1, 0] A transposes_S4096x4096_S4096x4096_1_0)⟩,
         ⟨S8192x1024, Host.dotGeneral (F := Ideal) dot_S8192x4096_S4096x1024_S8192x1024_1_0_0_1_n_n none x
            (transpose S4096x1024 [1, 0] B transposes_S1024x4096_S4096x1024_1_0)⟩,
         ⟨S8192x1024, Host.dotGeneral (F := Ideal) dot_S8192x4096_S4096x1024_S8192x1024_1_0_0_1_n_n none x
            (transpose S4096x1024 [1, 0] C transposes_S1024x4096_S4096x1024_1_0)⟩]
        concatenates_S8192x4096_S8192x1024_S8192x1024_S8192x6144_d1
      = Cert.Spec.G hcat x A B C := by
  funext j
  obtain ⟨t, o, rfl⟩ : ∃ (t : Fin 8192) (o : Fin 6144), j = ix2 t o := ⟨j 0, j 1, eq_ix2 j⟩
  show _ = Cert.Spec.Gat hcat x A B C t o
  unfold Cert.Spec.Gat
  by_cases h1 : o.val < 4096
  · rw [join_apply_0 _ _ _ t o h1, dotA_apply]
    exact Finset.sum_congr rfl fun k _ => by rw [wall_apply_0 hcat A B C o k h1]
  · by_cases h2 : o.val < 5120
    · rw [join_apply_1 _ _ _ t o (by omega) h2, dotB_apply]
      exact Finset.sum_congr rfl fun k _ => by rw [wall_apply_1 hcat A B C o k (by omega) h2]
    · rw [join_apply_2 _ _ _ t o (by omega), dotB_apply]
      exact Finset.sum_congr rfl fun k _ => by rw [wall_apply_2 hcat A B C o k (by omega)]

/-! ## The reference's run, with its result stated as G -/

/-- Every weakly fair execution of the reference terminates with its result buffer at the specification's array of the
    launch contents (each weight array scaled by its own scales), the seven arguments unchanged. -/
theorem run (hcat : Shape.Concatenates [Cert.Spec.SA, Cert.Spec.SB, Cert.Spec.SB] Cert.Spec.SW 0)
    (a1 : Cert.Spec.SA.ShapeCasts Cert.Spec.S4A)
    (a2 : Cert.Spec.SsA.BroadcastsInDim Cert.Spec.S4As (![0, 2] : Fin 2 → Fin Cert.Spec.S4As.rank))
    (a3 : Cert.Spec.S4As.BroadcastsInDim Cert.Spec.S4A (![0, 1, 2, 3] : Fin 4 → Fin Cert.Spec.S4A.rank))
    (a4 : Cert.Spec.S4A.ShapeCasts Cert.Spec.SA)
    (b1 : Cert.Spec.SB.ShapeCasts Cert.Spec.S4B)
    (b2 : Cert.Spec.SsB.BroadcastsInDim Cert.Spec.S4Bs (![0, 2] : Fin 2 → Fin Cert.Spec.S4Bs.rank))
    (b3 : Cert.Spec.S4Bs.BroadcastsInDim Cert.Spec.S4B (![0, 1, 2, 3] : Fin 4 → Fin Cert.Spec.S4B.rank))
    (b4 : Cert.Spec.S4B.ShapeCasts Cert.Spec.SB)
    (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
          = Cert.Spec.G hcat (m ((c.tc : Thread nD τ).loc main_arg0))
              (Cert.Spec.dqA a1 a2 a3 a4 (m ((c.tc : Thread nD τ).loc main_arg1)) (m ((c.tc : Thread nD τ).loc main_arg4)))
              (Cert.Spec.dqB b1 b2 b3 b4 (m ((c.tc : Thread nD τ).loc main_arg2)) (m ((c.tc : Thread nD τ).loc main_arg5)))
              (Cert.Spec.dqB b1 b2 b3 b4 (m ((c.tc : Thread nD τ).loc main_arg3)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_eq hcat _ _ _ _), (h c).2⟩)
    (Cert.ReferenceIdeal.Value.run (F := Ideal) m ρ)

end Cert.RefValue

end
-- ==== Proof.lean ====
/-
  The five claims about the fused, block-scaled Q/K/V projection.

  Both idealized programs compute, at entry (t, o), the inner product over all 4096 columns of row t of the activations
  with row o of the three block-scaled weight arrays stacked one above the other: the reference as three whole matrix
  products laid side by side, the kernel eight column tiles of 512 at a time into a block that starts at zero and is
  written back after the eighth.  A change of float format is the identity on the extended reals, both programs scale
  the weights by the same chain of operations, and regrouping a finite sum into tiles is a law of every commutative
  monoid: so the two results are equal with no use of the precondition.  The two kernels' frames come from running the
  body symbolically in its two cases (column tile 0, which zeroes the block first, and the later column tiles) under
  the pipeline's launch theorem; the reference's frame is its run with the result dropped; the ideal pass rewrote
  nothing, so there is nothing to preserve.
-/
import proofs.«176679_j1915555414614_2_alg».proof.Defs
import proofs.«176679_j1915555414614_2_alg».proof.Proof.Gen.Kernel
import proofs.«176679_j1915555414614_2_alg».proof.Proof.Gen.KernelIdeal
import proofs.«176679_j1915555414614_2_alg».proof.Proof.Gen.ReferenceIdeal
import proofs.«176679_j1915555414614_2_alg».proof.Proof.Gen.Pre_finite_inputs
import proofs.«176679_j1915555414614_2_alg».proof.Proof.K.Frame
import proofs.«176679_j1915555414614_2_alg».proof.Proof.KernelValue
import proofs.«176679_j1915555414614_2_alg».proof.Proof.RefValue
import Idealize.ShloMosaic.Adequacy
import Idealize.ShloMosaic.Init

noncomputable section

namespace Cert.Proof

open Idealize.ShloMosaic Idealize.SL.Sem

/-- The word-level kernel runs to the end, faults nowhere, and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

open Cert.KernelIdeal.Facts₀ in
/-- From memories agreeing on the arguments both idealized programs end with the specification's function of the
    arguments in their result arrays. -/
theorem algebraic : Cert.algebraic_KernelIdeal_ReferenceIdeal := by
  intro m ρ m' ρ' _ hagree
  have hcat := Cert.KernelIdeal.Facts₀.concatenates_S4096x4096_S1024x4096_S1024x4096_S6144x4096_d0
  have a1 := Cert.KernelIdeal.Facts₀.shapeCasts_S4096x4096_S32x128x32x128
  have a2 := Cert.KernelIdeal.Facts₀.bcast_S32x32_S32x1x32x1_0_2
  have a3 := Cert.KernelIdeal.Facts₀.bcast_S32x1x32x1_S32x128x32x128_0_1_2_3
  have a4 := Cert.KernelIdeal.Facts₀.shapeCasts_S32x128x32x128_S4096x4096
  have b1 := Cert.KernelIdeal.Facts₀.shapeCasts_S1024x4096_S8x128x32x128
  have b2 := Cert.KernelIdeal.Facts₀.bcast_S8x32_S8x1x32x1_0_2
  have b3 := Cert.KernelIdeal.Facts₀.bcast_S8x1x32x1_S8x128x32x128_0_1_2_3
  have b4 := Cert.KernelIdeal.Facts₀.shapeCasts_S8x128x32x128_S1024x4096
  refine ⟨_, Cert.KernelValue.run hcat a1 a2 a3 a4 b1 b2 b3 b4 m ρ, ?_⟩
  refine (θ_run Cert.ReferenceIdeal.defs _ _).mono (fun _ h c => ⟨(h c).1.trans ?_, (h c).2⟩)
    (Cert.RefValue.run hcat a1 a2 a3 a4 b1 b2 b3 b4 m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
